-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x256 : Shape := ⟨2, ![128, 256]⟩
abbrev S256 : Shape := ⟨1, ![256]⟩
abbrev S256x40 : Shape := ⟨2, ![256, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S256x40 .f32) (main_arg7 : FVec F S40 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x40 .f32 := Host.absf main_arg6
  let main_cst_6 : FVec F S_ .f32 := constant S_ .f32 0x7F800000#32
  let main_v20 : FVec F S256x40 .f32 := broadcastInDim S256x40 ![] bcast_S_S256x40 main_cst_6
  let main_v21 : IVec S256x40 1 := cmpf .olt main_v19 main_v20
  let main_c_7 : IVec S_ 1 := constantI S_ 1 1#1
  let main_v22 : IVec S_ 1 := (fun x v => Host.reduce IntOp.andi x v reducesTo_S256x40_S_d0_1 h_S_) main_v21 main_c_7
  let main_v23 : IVec S_ 1 := andi main_v18 main_v22
  let main_v24 : FVec F S40 .f32 := Host.absf main_arg7
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S50000x128 .f32) (main_arg1 : IVec S800000 32) (main_arg2 : IVec S800000 32) (main_arg3 : FVec F S800000 .f32) (main_arg4 : FVec F S128x256 .f32) (main_arg5 : FVec F S256 .f32) (main_arg6 : FVec F S256x40 .f32) (main_arg7 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_v13 main_v16
-- ==== Kernel.lean ====
abbrev S50000x128 : Shape := ⟨2, ![50000, 128]⟩
abbrev S800000 : Shape := ⟨1, ![800000]⟩
abbrev S128x256 : Shape := ⟨2, ![128, 256]⟩
abbrev S256 : Shape := ⟨1, ![256]⟩
abbrev S256x40 : Shape := ⟨2, ![256, 40]⟩
abbrev S40 : Shape := ⟨1, ![40]⟩
abbrev S_ : Shape := ⟨0, ![]⟩
abbrev S800000x1 : Shape := ⟨2, ![800000, 1]⟩
abbrev S800000x128 : Shape := ⟨2, ![800000, 128]⟩
abbrev S1x256 : Shape := ⟨2, ![1, 256]⟩
abbrev S1x40 : Shape := ⟨2, ![1, 40]⟩
abbrev S50000x40 : Shape := ⟨2, ![50000, 40]⟩
abbrev S2000x128 : Shape := ⟨2, ![2000, 128]⟩
abbrev S2000x40 : Shape := ⟨2, ![2000, 40]⟩
abbrev S2000x256 : Shape := ⟨2, ![2000, 256]⟩
abbrev S2000 : Shape := ⟨1, ![2000]⟩
abbrev S2000x1 : Shape := ⟨2, ![2000, 1]⟩

abbrev nBuf : Space → Nat
  | .hbm => 67
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x256, .f32⟩
  | .hbm, ⟨5, _⟩ => ⟨S256, .f32⟩
  | .hbm, ⟨6, _⟩ => ⟨S256x40, .f32⟩
  | .hbm, ⟨7, _⟩ => ⟨S40, .f32⟩
  | .hbm, ⟨8, _⟩ => ⟨S_, .f32⟩
  | .hbm, ⟨9, _⟩ => ⟨S50000x128, .f32⟩
  | .hbm, ⟨10, _⟩ => ⟨S50000x128, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S800000x1, .f32⟩
  | .hbm, ⟨21, _⟩ => ⟨S800000x128, .f32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S50000x128, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S800000x1, .f32⟩
  | .hbm, ⟨38, _⟩ => ⟨S800000x128, .f32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S50000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S800000x1, .f32⟩
  | .hbm, ⟨55, _⟩ => ⟨S800000x128, .f32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S50000x128, .f32⟩
  | .hbm, ⟨62, _⟩ => ⟨S128x256, .bf16⟩
  | .hbm, ⟨63, _⟩ => ⟨S256x40, .bf16⟩
  | .hbm, ⟨64, _⟩ => ⟨S1x256, .f32⟩
  | .hbm, ⟨65, _⟩ => ⟨S1x40, .f32⟩
  | .hbm, ⟨66, _⟩ => ⟨S50000x40, .f32⟩
  | .local _ .vmem, ⟨0, _⟩ => ⟨S2000x128, .f32⟩
  | .local _ .vmem, ⟨1, _⟩ => ⟨S2000x128, .f32⟩
  | .local _ .vmem, ⟨2, _⟩ => ⟨S128x256, .bf16⟩
  | .local _ .vmem, ⟨3, _⟩ => ⟨S1x256, .f32⟩
  | .local _ .vmem, ⟨4, _⟩ => ⟨S256x40, .bf16⟩
  | .local _ .vmem, ⟨5, _⟩ => ⟨S1x40, .f32⟩
  | .local _ .vmem, ⟨6, _⟩ => ⟨S2000x40, .f32⟩
  | .local _ .vmem, ⟨7, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x40 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x40 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S50000x128 : S_.BroadcastsInDim S50000x128 (![] : Fin 0 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bitsLt_bf16_f32 : FTy.bits .bf16 < FTy.bits .f32
  shapeCasts_S256_S1x256 : S256.ShapeCasts S1x256
  shapeCasts_S40_S1x40 : S40.ShapeCasts S1x40
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x40_S256x40_0_0 : ∀ a, (![0, 0] : Fin 2 → Nat) a + S256x40.size a ≤ S256x40.size a
  h_S256x40 : 0 < S256x40.numel
  shapeCasts_S256x40_S256x40 : S256x40.ShapeCasts S256x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  inb_S2000x40_S2000x40_0_0 : ∀ a, (![0, 0] : Fin 2 → Nat) a + S2000x40.size a ≤ S2000x40.size a
  h_S2000x40 : 0 < S2000x40.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x40_S2000x40_1_0_0_1_n_n_wf : DotDims.WF S2000x256 S256x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x40.size a ≤ S256x40.size a
  hwx0_3 : ∀ i : grid0.Coords, EltTy.bits .bf16 = 32 ∨ (Rect.block (s := S256x40) S256x40.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x40.size a ≤ S1x40.size a
  hwx0_4 : ∀ i : grid0.Coords, EltTy.bits .f32 = 32 ∨ (Rect.block (s := S1x40) S1x40.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x40.size a ≤ S50000x40.size a
  hwx0_5 : ∀ i : grid0.Coords, EltTy.bits .f32 = 32 ∨ (Rect.block (s := S50000x40) S2000x40.size (cc0_transform_5 i) (hinb0_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x40_S2000x40_1_0_0_1_n_n : DotDims S2000x256 S256x40 S2000x40 where
  lhsContracting := [1]
  rhsContracting := [0]
  lhsNonContracting := [0]
  rhsNonContracting := [1]
  lhsBatch := []
  rhsBatch := []
  wf := dot_S2000x256_S256x40_S2000x40_1_0_0_1_n_n_wf

abbrev win0_0 : Pipeline.Window sig grid0 :=
  Pipeline.Window.ofSpec (Memref.whole main_v43) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v44) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v46) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v45) S256x40.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v47) S1x40.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v48) S2000x40.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x256 : Shape := ⟨2, ![128, 256]⟩
abbrev S256 : Shape := ⟨1, ![256]⟩
abbrev S256x40 : Shape := ⟨2, ![256, 40]⟩
abbrev S40 : Shape := ⟨1, ![40]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩
abbrev S1x256 : Shape := ⟨2, ![1, 256]⟩
abbrev S50000x40 : Shape := ⟨2, ![50000, 40]⟩
abbrev S1x40 : Shape := ⟨2, ![1, 40]⟩
abbrev S50000 : Shape := ⟨1, ![50000]⟩
abbrev S50000x1 : Shape := ⟨2, ![50000, 1]⟩

abbrev nBuf : Space → Nat
  | .hbm => 106
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x256, .f32⟩
  | .hbm, ⟨5, _⟩ => ⟨S256, .f32⟩
  | .hbm, ⟨6, _⟩ => ⟨S256x40, .f32⟩
  | .hbm, ⟨7, _⟩ => ⟨S40, .f32⟩
  | .hbm, ⟨8, _⟩ => ⟨S_, .f32⟩
  | .hbm, ⟨9, _⟩ => ⟨S50000x128, .f32⟩
  | .hbm, ⟨10, _⟩ => ⟨S50000x128, .f32⟩
  | .hbm, ⟨11, _⟩ => ⟨S800000x1, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S800000x128, .f32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S50000x128, .f32⟩
  | .hbm, ⟨28, _⟩ => ⟨S800000x1, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x128, .f32⟩
  | .hbm, ⟨38, _⟩ => ⟨S800000x128, .f32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S50000x128, .f32⟩
  | .hbm, ⟨45, _⟩ => ⟨S800000x1, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S800000x128, .f32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S50000x128, .f32⟩
  | .hbm, ⟨62, _⟩ => ⟨S_, .f32⟩
  | .hbm, ⟨63, _⟩ => ⟨S50000x128, .f32⟩
  | .hbm, ⟨64, _⟩ => ⟨S50000x128, .f32⟩
  | .hbm, ⟨65, _⟩ => ⟨S50000x256, .f32⟩
  | .hbm, ⟨66, _⟩ => ⟨S1x256, .f32⟩
  | .hbm, ⟨67, _⟩ => ⟨S50000x256, .f32⟩
  | .hbm, ⟨68, _⟩ => ⟨S50000x256, .f32⟩
  | .hbm, ⟨69, _⟩ => ⟨S_, .f32⟩
  | .hbm, ⟨70, _⟩ => ⟨S50000x256, .f32⟩
  | .hbm, ⟨71, _⟩ => ⟨S50000x256, .f32⟩
  | .hbm, ⟨72, _⟩ => ⟨S50000x40, .f32⟩
  | .hbm, ⟨73, _⟩ => ⟨S1x40, .f32⟩
  | .hbm, ⟨74, _⟩ => ⟨S50000x40, .f32⟩
  | .hbm, ⟨75, _⟩ => ⟨S50000x40, .f32⟩
  | .hbm, ⟨76, _⟩ => ⟨S_, .f32⟩
  | .hbm, ⟨77, _⟩ => ⟨S50000, .f32⟩
  | .hbm, ⟨78, _⟩ => ⟨S_, .f32⟩
  | .hbm, ⟨79, _⟩ => ⟨S50000, .f32⟩
  | .hbm, ⟨80, _⟩ => ⟨S50000, .f32⟩
  | .hbm, ⟨81, _⟩ => ⟨S50000x1, .f32⟩
  | .hbm, ⟨82, _⟩ => ⟨S50000x40, .f32⟩
  | .hbm, ⟨83, _⟩ => ⟨S50000x40, .f32⟩
  | .hbm, ⟨84, _⟩ => ⟨S50000x40, .f32⟩
  | .hbm, ⟨85, _⟩ => ⟨S_, .f32⟩
  | .hbm, ⟨86, _⟩ => ⟨S50000, .f32⟩
  | .hbm, ⟨87, _⟩ => ⟨S50000x1, .f32⟩
  | .hbm, ⟨88, _⟩ => ⟨S50000x1, .f32⟩
  | .hbm, ⟨89, _⟩ => ⟨S50000x40, .f32⟩
  | .hbm, ⟨90, _⟩ => ⟨S50000x40, .f32⟩
  | .hbm, ⟨91, _⟩ => ⟨S_, .f32⟩
  | .hbm, ⟨92, _⟩ => ⟨S50000, .f32⟩
  | .hbm, ⟨93, _⟩ => ⟨S_, .f32⟩
  | .hbm, ⟨94, _⟩ => ⟨S50000, .f32⟩
  | .hbm, ⟨95, _⟩ => ⟨S50000, .f32⟩
  | .hbm, ⟨96, _⟩ => ⟨S50000x1, .f32⟩
  | .hbm, ⟨97, _⟩ => ⟨S50000x40, .f32⟩
  | .hbm, ⟨98, _⟩ => ⟨S50000x40, .f32⟩
  | .hbm, ⟨99, _⟩ => ⟨S50000x40, .f32⟩
  | .hbm, ⟨100, _⟩ => ⟨S_, .f32⟩
  | .hbm, ⟨101, _⟩ => ⟨S50000, .f32⟩
  | .hbm, ⟨102, _⟩ => ⟨S50000x1, .f32⟩
  | .hbm, ⟨103, _⟩ => ⟨S50000x1, .f32⟩
  | .hbm, ⟨104, _⟩ => ⟨S50000x40, .f32⟩
  | .hbm, ⟨105, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_call0_cst : Ref sig .tc := ⟨.hbm, 69, rfl⟩
abbrev main_call0_v0 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_call1_cst : Ref sig .tc := ⟨.hbm, 76, rfl⟩
abbrev main_call1_v0 : Ref sig .tc := ⟨.hbm, 77, rfl⟩
abbrev main_call1_cst_0 : Ref sig .tc := ⟨.hbm, 78, rfl⟩
abbrev main_call1_v1 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_v5 : Ref sig .tc := ⟨.hbm, 83, rfl⟩
abbrev main_call1_v6 : Ref sig .tc := ⟨.hbm, 84, rfl⟩
abbrev main_call1_cst_1 : Ref sig .tc := ⟨.hbm, 85, rfl⟩
abbrev main_call1_v7 : Ref sig .tc := ⟨.hbm, 86, rfl⟩
abbrev main_call1_v8 : Ref sig .tc := ⟨.hbm, 87, rfl⟩
abbrev main_call1_v9 : Ref sig .tc := ⟨.hbm, 88, rfl⟩
abbrev main_call1_v10 : Ref sig .tc := ⟨.hbm, 89, rfl⟩
abbrev main_v55 : Ref sig .tc := ⟨.hbm, 90, rfl⟩
abbrev main_call2_cst : Ref sig .tc := ⟨.hbm, 91, rfl⟩
abbrev main_call2_v0 : Ref sig .tc := ⟨.hbm, 92, rfl⟩
abbrev main_call2_cst_0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_v6 : Ref sig .tc := ⟨.hbm, 99, rfl⟩
abbrev main_call2_cst_1 : Ref sig .tc := ⟨.hbm, 100, rfl⟩
abbrev main_call2_v7 : Ref sig .tc := ⟨.hbm, 101, rfl⟩
abbrev main_call2_v8 : Ref sig .tc := ⟨.hbm, 102, rfl⟩
abbrev main_call2_v9 : Ref sig .tc := ⟨.hbm, 103, rfl⟩
abbrev main_call2_v10 : Ref sig .tc := ⟨.hbm, 104, rfl⟩
abbrev main_v56 : Ref sig .tc := ⟨.hbm, 105, rfl⟩

abbrev nD : Nat := 1
abbrev τ : Topo := Topo.v7x

variable {F : FTy → Type} [FloatOps F]

class Facts₀ : Prop where
  bcast_S_S50000x128 : S_.BroadcastsInDim S50000x128 (![] : Fin 0 → Fin S50000x128.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x40_S50000x40_1_0_0_1_n_n_wf : DotDims.WF S50000x256 S256x40 S50000x40 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x40_S50000x40_1_0_0_1_n_n : DotDims S50000x256 S256x40 S50000x40 where
  lhsContracting := [1]
  rhsContracting := [0]
  lhsNonContracting := [0]
  rhsNonContracting := [1]
  lhsBatch := []
  rhsBatch := []
  wf := dot_S50000x256_S256x40_S50000x40_1_0_0_1_n_n_wf

class Facts : Prop extends Facts₀ where

variable [Facts]
-- ==== Proof.Spec.lean ====
/-
  The classifier head as ONE function of its argument arrays, in the two spellings the two programs use.

  A node's row of 128 aggregated features `y` goes through two dense layers,
  `h = max (s(y) · W1 + b1) 0` and `z = h · W2 + b2`, and then twice through a row log-softmax. The two programs
  differ in two places only. The scaling `s`: one multiplies by the word of 0.25, the other divides by the word
  of 4. The log-softmax of a row `z` with maximum `M` and `L = log (∑ exp (z k − M))`: one computes
  `z j − (M + L)`, the other `(z j − M) − L`, its maximum taken once more against −∞ and its sum started from
  the zero word. Everything is stated on the extended reals, over families indexed by `Fin`; the float words are
  kept as words (`Ideal.ofBits`), so that the same word on two sides is never evaluated.

  `arrK` / `arrR` are the whole 50000 × 40 result arrays in the two spellings: row `r` of the result is the head
  of row `r` of the 50000 × 128 array `Y`.
-/
import Idealize.ShloMosaic.PureOps.Ideal
import Idealize.ShloMosaic.Lib.ValueIdx

noncomputable section

namespace Cert.Spec

open Idealize.ShloMosaic Idealize.ShloMosaic.ValueIdx
open scoped BigOperators

/-- An extended real that is a real number (neither infinity). -/
def IsReal (x : EReal) : Prop := ∃ r : ℝ, x = (r : EReal)

/-- The word of −∞, from which a row maximum is folded. -/
abbrev negInf : EReal := Ideal.ofBits .f32 0xFF800000#32
/-- The word of +0.0: the rectifier's threshold, and the value a host sum starts from. -/
abbrev zero32 : EReal := Ideal.ofBits .f32 0x00000000#32
/-- The word of 0.25. -/
abbrev quarter : EReal := Ideal.ofBits .f32 0x3E800000#32
/-- The word of 4.0. -/
abbrev four : EReal := Ideal.ofBits .f32 0x40800000#32

/-- A row's maximum: the fold of `max` from the word of −∞ over the row's entries. -/
def rowMax {n : Nat} (z : Fin n → EReal) : EReal := (Finset.univ : Finset (Fin n)).fold max negInf z

/-- `∑ₖ exp (z k − M)`, `M` the row's maximum. -/
def expSumK {n : Nat} (z : Fin n → EReal) : EReal := ∑ k : Fin n, Ideal.exp (z k - rowMax z)

/-- The row log-softmax spelt `z j − (M + L)`. -/
def lsmK {n : Nat} (z : Fin n → EReal) : Fin n → EReal :=
  fun j => z j - (rowMax z + Ideal.log (expSumK z))

/-- The row maximum taken once more against the word of −∞. -/
def rowMaxR {n : Nat} (z : Fin n → EReal) : EReal := max negInf (rowMax z)

/-- The same sum of exponentials, started from the zero word, about `rowMaxR`. -/
def expSumR {n : Nat} (z : Fin n → EReal) : EReal := zero32 + ∑ k : Fin n, Ideal.exp (z k - rowMaxR z)

/-- The row log-softmax spelt `(z j − M) − L`. -/
def lsmR {n : Nat} (z : Fin n → EReal) : Fin n → EReal :=
  fun j => (z j - rowMaxR z) - Ideal.log (expSumR z)

/-- The hidden layer of a feature row `x`: `max (∑ᵢ x i · W1 i k + b1 k) 0`. -/
def hidden {a h : Nat} (x : Fin a → EReal) (W1 : Fin a → Fin h → EReal) (b1 : Fin h → EReal) : Fin h → EReal :=
  fun k => max ((∑ i : Fin a, x i * W1 i k) + b1 k) zero32

/-- The logits of a feature row: `∑ₖ hidden k · W2 k c + b2 c`. -/
def logits {a h o : Nat} (x : Fin a → EReal) (W1 : Fin a → Fin h → EReal) (b1 : Fin h → EReal)
    (W2 : Fin h → Fin o → EReal) (b2 : Fin o → EReal) : Fin o → EReal :=
  fun c => (∑ k : Fin h, hidden x W1 b1 k * W2 k c) + b2 c

/-- The head of a row `y`, scaled by the word of 0.25, log-softmax spelt `z − (M + L)`, twice. -/
def headK {a h o : Nat} (y : Fin a → EReal) (W1 : Fin a → Fin h → EReal) (b1 : Fin h → EReal)
    (W2 : Fin h → Fin o → EReal) (b2 : Fin o → EReal) : Fin o → EReal :=
  lsmK (lsmK (logits (fun i => y i * quarter) W1 b1 W2 b2))

/-- The head of a row `y`, divided by the word of 4, log-softmax spelt `(z − M) − L`, twice. -/
def headR {a h o : Nat} (y : Fin a → EReal) (W1 : Fin a → Fin h → EReal) (b1 : Fin h → EReal)
    (W2 : Fin h → Fin o → EReal) (b2 : Fin o → EReal) : Fin o → EReal :=
  lsmR (lsmR (logits (fun i => Ideal.div (y i) four) W1 b1 W2 b2))

/-- The 50000 × 40 result in the first spelling: entry `(r, c)` is the head of row `r` of `Y` at `c`. -/
def arrK (Y : (⟨2, ![50000, 128]⟩ : Shape).Idx → EReal) (W1 : Fin 128 → Fin 256 → EReal) (b1 : Fin 256 → EReal)
    (W2 : Fin 256 → Fin 40 → EReal) (b2 : Fin 40 → EReal) : (⟨2, ![50000, 40]⟩ : Shape).Idx → EReal :=
  fun i => headK (fun a : Fin 128 => Y (ix2 (⟨(i 0).val, idx2_lt0 i⟩ : Fin 50000) a)) W1 b1 W2 b2 ⟨(i 1).val, idx2_lt1 i⟩

/-- The 50000 × 40 result in the second spelling. -/
def arrR (Y : (⟨2, ![50000, 128]⟩ : Shape).Idx → EReal) (W1 : Fin 128 → Fin 256 → EReal) (b1 : Fin 256 → EReal)
    (W2 : Fin 256 → Fin 40 → EReal) (b2 : Fin 40 → EReal) : (⟨2, ![50000, 40]⟩ : Shape).Idx → EReal :=
  fun i => headR (fun a : Fin 128 => Y (ix2 (⟨(i 0).val, idx2_lt0 i⟩ : Fin 50000) a)) W1 b1 W2 b2 ⟨(i 1).val, idx2_lt1 i⟩

end Cert.Spec

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.LibKeepdims.lean ====
/-
  Sums along one axis of a matrix with the reduced axis kept as a unit axis, read at an index.

  A row sum of an `M×K` matrix kept as a column (`[M] → [M, 1]`) and broadcast over `N` columns reads, at `(p, c)`,
  the sum over `k : Fin K` of row `p`; a column sum of a `K×N` matrix kept as a row (`[N] → [1, N]`) and broadcast
  over `M` rows reads, at `(p, c)`, the sum over `k : Fin K` of column `c`. The two layout steps that the column form
  needs (a trailing unit axis added by a shape cast, a column broadcast over many columns) are stated on their own.
-/
import Idealize.ShloMosaic.PureOps.Ideal.Laws
import Idealize.ShloMosaic.Lib.ValueIdx
import Idealize.ShloMosaic.Lib.ValueLayout

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of a matrix over its columns (axis 1), at row `p`: the sum of that row. -/
theorem sum_axis1_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A lane sum of a matrix over its rows (axis 0), at column `q`: the sum of that column. -/
theorem sum_axis0_apply {a b : ℕ} {φ : FTy} (src : FVec Ideal (⟨2, ![a, b]⟩ : Shape) φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ k : Fin a, src (ix2 k q) :=
  (Ideal.multiReduction_add_single src acc h hφ hacc (ix1 q)).trans
    (Finset.sum_congr rfl fun k _ => congrArg src (funext fun ax => Fin.ext (by
      match ax with
      | ⟨0, _⟩ => rfl
      | ⟨1, _⟩ => rfl)))

/-- The row sums of an `M×K` matrix, kept as a column and broadcast over `N` columns, at `(p, c)`. -/
theorem rowSum_keep_bcast_apply {M K N : ℕ} {φ : FTy} (src : FVec Ideal (⟨2, ![M, K]⟩ : Shape) φ) (acc : BitVec φ.bits)
    (h : (⟨2, ![M, K]⟩ : Shape).Reduces [1] ⟨1, ![M]⟩) (hφ : FKind.Formats φ) (hacc : acc = FKind.add.neutral φ hφ)
    (hc : (⟨1, ![M]⟩ : Shape).ShapeCasts ⟨2, ![M, 1]⟩) (hb : (⟨2, ![M, 1]⟩ : Shape).Broadcasts ⟨2, ![M, N]⟩)
    (p : Fin M) (c : Fin N) :
    broadcastTo ⟨2, ![M, N]⟩ (shapeCast ⟨2, ![M, 1]⟩ (multiReduction .add [1] ⟨1, ![M]⟩ src acc h hφ hacc) hc) hb (ix2 p c)
      = ∑ k : Fin K, src (ix2 p k) :=
  (broadcastTo_a1_ab_apply _ hb p c).trans
    ((shapeCast_a_a1_apply _ hc p 0).trans (sum_axis1_apply src acc h hφ hacc p))

/-- The column sums of a `K×N` matrix, kept as a row and broadcast over `M` rows, at `(p, c)`. -/
theorem colSum_keep_bcast_apply {M K N : ℕ} {φ : FTy} (src : FVec Ideal (⟨2, ![K, N]⟩ : Shape) φ) (acc : BitVec φ.bits)
    (h : (⟨2, ![K, N]⟩ : Shape).Reduces [0] ⟨1, ![N]⟩) (hφ : FKind.Formats φ) (hacc : acc = FKind.add.neutral φ hφ)
    (hc : (⟨1, ![N]⟩ : Shape).ShapeCasts ⟨2, ![1, N]⟩) (hb : (⟨2, ![1, N]⟩ : Shape).Broadcasts ⟨2, ![M, N]⟩)
    (p : Fin M) (c : Fin N) :
    broadcastTo ⟨2, ![M, N]⟩ (shapeCast ⟨2, ![1, N]⟩ (multiReduction .add [0] ⟨1, ![N]⟩ src acc h hφ hacc) hc) hb (ix2 p c)
      = ∑ k : Fin K, src (ix2 k c) :=
  (broadcastTo_1b_ab_apply _ hb p c).trans
    ((shapeCast_a_1a_apply _ hc 0 c).trans (sum_axis0_apply src acc h hφ hacc c))

end Cert.Keepdims

end
-- ==== Proof.LibRowMax.lean ====
/-
  A maximum along the columns of a matrix, read at an index.

  A lane maximum of an `a × b` matrix over its columns (axis 1), taken from the accumulator's value (the word of −∞),
  reads at row `p` the fold of `max` from that value over the `b` entries of row `p`: the reduced index with each
  column coordinate inserted is the matrix index `(p, k)`.
-/
import Idealize.ShloMosaic.PureOps.Ideal.Laws
import Idealize.ShloMosaic.Lib.ValueIdx

noncomputable section

namespace Cert.RowMax

open Idealize.ShloMosaic Idealize.ShloMosaic.ValueIdx

/-- A lane maximum of a matrix over its columns (axis 1), at row `p`: the fold of `max` from the accumulator's value
    over that row. -/
theorem max_axis1_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => Finset.fold max (Ideal.ofBits φ acc) f (Finset.univ : Finset (Fin b)))
      (funext fun k => congrArg src (funext fun ax => Fin.ext (by
        match ax with
        | ⟨0, _⟩ => rfl
        | ⟨1, _⟩ => rfl))))

end Cert.RowMax

end
-- ==== Proof.KernelBlock.lean ====
/-
  The block's arithmetic read at an index.

  One block of 2000 rows of aggregated features goes through two dense layers and then twice through a row
  log-softmax. At the extended reals every step reads at an index `(p, q)` as a function of row `p` alone: the
  scaling by the word of 0.25 and the two format changes are entrywise, a product into the zero accumulator is the
  sum over the contracted axis, a bias row broadcast over the rows reads its one row, a lane maximum or lane sum
  kept as a column and broadcast back reads the maximum or the sum of row `p`. So the log-softmax layer
  `z ↦ z − (M + L)`, `M` the row maxima and `L = log (∑ exp (z − M))`, is stated once over an arbitrary
  `2000 × 40` matrix and used twice: on the logits, and on its own result. The stored value at `(p, q)` is then
  the specification's head of row `p`, at `q`.
-/
import proofs.«167773_j20693152432219_2_alg».proof.Proof.Gen.KernelIdeal.Skeleton
import proofs.«167773_j20693152432219_2_alg».proof.Proof.Spec
import proofs.«167773_j20693152432219_2_alg».proof.Proof.LibPlainDot
import proofs.«167773_j20693152432219_2_alg».proof.Proof.LibKeepdims
import proofs.«167773_j20693152432219_2_alg».proof.Proof.LibRowMax
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Block

open Cert.KernelIdeal Cert.KernelIdeal.Gen Idealize.ShloMosaic Idealize.ShloMosaic.ValueIdx Cert.RowMax

open scoped BigOperators

/-! ## The log-softmax layer -/

/-- The row maxima of a `2000 × 40` matrix, kept as a column. -/
def maxCol (z : FVec Ideal S2000x40 .f32) : FVec Ideal S2000x1 .f32 :=
  shapeCast S2000x1 (multiReduction .maximumf [1] S2000 z 0xFF800000#32 reduces_S2000x40_S2000 (.inl rfl) rfl)
    shapeCasts_S2000_S2000x1

/-- The logarithms of the lane sums of `exp (z − M)`, `M` the kept column of row maxima, kept as a column. -/
def logSumCol (z : FVec Ideal S2000x40 .f32) : FVec Ideal S2000x1 .f32 :=
  log (shapeCast S2000x1 (multiReduction .add [1] S2000
      (exp (subf z (broadcastTo S2000x40 (maxCol z) broadcasts_S2000x1_S2000x40)))
      0x00000000#32 reduces_S2000x40_S2000 (.inl rfl) rfl) shapeCasts_S2000_S2000x1)

/-- The layer `z − (M + L)` as the body spells it. -/
def lsLayer (z : FVec Ideal S2000x40 .f32) : FVec Ideal S2000x40 .f32 :=
  subf z (broadcastTo S2000x40 (addf (maxCol z) (logSumCol z)) broadcasts_S2000x1_S2000x40)

/-- The kept column of row maxima at `(p, u)`: the maximum of row `p`. -/
theorem maxCol_apply (z : FVec Ideal S2000x40 .f32) (p : Fin 2000) (u : Fin 1) :
    maxCol z (ix2 p u) = Cert.Spec.rowMax (fun k : Fin 40 => z (ix2 p k)) :=
  (Cert.Keepdims.shapeCast_a_a1_apply _ shapeCasts_S2000_S2000x1 p u).trans
    (max_axis1_apply z 0xFF800000#32 reduces_S2000x40_S2000 (.inl rfl) rfl p)

/-- The kept column of log lane sums at `(p, u)`: `log (∑ₖ exp (z (p, k) − M p))`. -/
theorem logSumCol_apply (z : FVec Ideal S2000x40 .f32) (p : Fin 2000) (u : Fin 1) :
    logSumCol z (ix2 p u) = Ideal.log (Cert.Spec.expSumK (fun k : Fin 40 => z (ix2 p k))) := by
  refine congrArg Ideal.log ?_
  refine (Cert.Keepdims.shapeCast_a_a1_apply _ shapeCasts_S2000_S2000x1 p u).trans ?_
  refine (Cert.Keepdims.sum_axis1_apply _ 0x00000000#32 reduces_S2000x40_S2000 (.inl rfl) rfl p).trans ?_
  refine Finset.sum_congr rfl fun k _ => ?_
  refine congrArg Ideal.exp ?_
  refine congrArg (fun m => z (ix2 p k) - m) ?_
  exact (Cert.Keepdims.broadcastTo_a1_ab_apply _ broadcasts_S2000x1_S2000x40 p k).trans (maxCol_apply z p 0)

/-- The layer at `(p, q)`: the row log-softmax `z − (M + L)` of row `p`, at `q`. -/
theorem lsLayer_apply (z : FVec Ideal S2000x40 .f32) (p : Fin 2000) (q : Fin 40) :
    lsLayer z (ix2 p q) = Cert.Spec.lsmK (fun k : Fin 40 => z (ix2 p k)) q := by
  refine congrArg (fun m => z (ix2 p q) - m) ?_
  refine (Cert.Keepdims.broadcastTo_a1_ab_apply _ broadcasts_S2000x1_S2000x40 p q).trans ?_
  exact congrArg₂ (fun a b : EReal => a + b) (maxCol_apply z p 0) (logSumCol_apply z p 0)

/-! ## The two dense layers -/

/-- The hidden layer of the block's rows, as the body spells it: the rows scaled by the word of 0.25, times the first
    weight matrix into the zero accumulator, plus the first bias row, rectified at the zero word. -/
def hiddenVec (v0 : Vec Ideal S2000x128 .f32) (v5 : Vec Ideal S128x256 .bf16) (v8 : Vec Ideal S1x256 .f32) :
    FVec Ideal S2000x256 .f32 :=
  maximumf
    (addf
      (matmul dot_S2000x128_S128x256_S2000x256_1_0_0_1_n_n none
        (truncf .bf16
          (mulf (shapeCast S2000x128 v0 shapeCasts_S2000x128_S2000x128 : FVec Ideal S2000x128 .f32)
            (broadcast S2000x128 (Scalar.ofBits (F := Ideal) .f32 0x3E800000#32)))
          bitsLt_bf16_f32)
        (shapeCast S128x256 v5 shapeCasts_S128x256_S128x256 : FVec Ideal S128x256 .bf16)
        (constant S2000x256 .f32 0x00000000#32))
      (broadcastTo S2000x256 (shapeCast S1x256 v8 shapeCasts_S1x256_S1x256 : FVec Ideal S1x256 .f32) broadcasts_S1x256_S2000x256))
    (broadcast S2000x256 (Scalar.ofBits (F := Ideal) .f32 0x00000000#32))

/-- The logits of the block's rows, as the body spells them: the hidden layer times the second weight matrix into
    the zero accumulator, plus the second bias row. -/
def logitsVec (v0 : Vec Ideal S2000x128 .f32) (v5 : Vec Ideal S128x256 .bf16) (v8 : Vec Ideal S1x256 .f32)
    (v15 : Vec Ideal S256x40 .bf16) (v18 : Vec Ideal S1x40 .f32) : FVec Ideal S2000x40 .f32 :=
  addf
    (matmul dot_S2000x256_S256x40_S2000x40_1_0_0_1_n_n none
      (truncf .bf16 (hiddenVec v0 v5 v8) bitsLt_bf16_f32)
      (shapeCast S256x40 v15 shapeCasts_S256x40_S256x40 : FVec Ideal S256x40 .bf16)
      (constant S2000x40 .f32 0x00000000#32))
    (broadcastTo S2000x40 (shapeCast S1x40 v18 shapeCasts_S1x40_S1x40 : FVec Ideal S1x40 .f32) broadcasts_S1x40_S2000x40)

/-- The hidden layer at `(p, k)`: `max (∑ᵢ (P0 (p, i) · ¼) · P1 (i, k) + P2 (0, k)) 0`. -/
theorem hiddenVec_apply (P0 : Vec Ideal S2000x128 .f32) (P1 : Vec Ideal S128x256 .bf16) (P2 : Vec Ideal S1x256 .f32)
    (p : Fin 2000) (k : Fin 256) :
    hiddenVec P0 P1 P2 (ix2 p k)
      = Cert.Spec.hidden (fun i : Fin 128 => P0 (ix2 p i) * Cert.Spec.quarter) (fun (a : Fin 128) (k : Fin 256) => P1 (ix2 a k))
          (fun k : Fin 256 => P2 (ix2 (0 : Fin 1) k)) k := by
  refine congrArg (fun m : EReal => max m Cert.Spec.zero32) ?_
  refine congrArg₂ (fun a b : EReal => a + b) ?_ ?_
  · refine (Cert.PlainDot.matmul_zero_apply 2000 128 256 none _ _ (ix2 p k)).trans ?_
    refine Finset.sum_congr rfl fun i _ => ?_
    refine congrArg₂ (fun a b : EReal => a * b) ?_ ?_
    · exact congrArg (fun v => v (ix2 p i) * Cert.Spec.quarter) (shapeCast_self P0 shapeCasts_S2000x128_S2000x128)
    · exact congrArg (fun v => v (ix2 i k)) (shapeCast_self P1 shapeCasts_S128x256_S128x256)
  · refine (broadcastTo_1b_ab_apply _ broadcasts_S1x256_S2000x256 p k).trans ?_
    exact congrArg (fun v => v (ix2 (0 : Fin 1) k)) (shapeCast_self P2 shapeCasts_S1x256_S1x256)

/-- The logits at `(p, c)`: the specification's logits of row `p` scaled by the word of 0.25, at `c`. -/
theorem logitsVec_apply (P0 : Vec Ideal S2000x128 .f32) (P1 : Vec Ideal S128x256 .bf16) (P2 : Vec Ideal S1x256 .f32)
    (P3 : Vec Ideal S256x40 .bf16) (P4 : Vec Ideal S1x40 .f32) (p : Fin 2000) (c : Fin 40) :
    logitsVec P0 P1 P2 P3 P4 (ix2 p c)
      = Cert.Spec.logits (fun i : Fin 128 => P0 (ix2 p i) * Cert.Spec.quarter) (fun (a : Fin 128) (k : Fin 256) => P1 (ix2 a k))
          (fun k : Fin 256 => P2 (ix2 (0 : Fin 1) k)) (fun (k : Fin 256) (c : Fin 40) => P3 (ix2 k c))
          (fun c : Fin 40 => P4 (ix2 (0 : Fin 1) c)) c := by
  refine congrArg₂ (fun a b : EReal => a + b) ?_ ?_
  · refine (Cert.PlainDot.matmul_zero_apply 2000 256 40 none _ _ (ix2 p c)).trans ?_
    refine Finset.sum_congr rfl fun k _ => ?_
    refine congrArg₂ (fun a b : EReal => a * b) ?_ ?_
    · exact hiddenVec_apply P0 P1 P2 p k
    · exact congrArg (fun v => v (ix2 k c)) (shapeCast_self P3 shapeCasts_S256x40_S256x40)
  · refine (broadcastTo_1b_ab_apply _ broadcasts_S1x40_S2000x40 p c).trans ?_
    exact congrArg (fun v => v (ix2 (0 : Fin 1) c)) (shapeCast_self P4 shapeCasts_S1x40_S1x40)

/-! ## The body -/

/-- The body's first value is the layer applied to the logits. -/
theorem pay2_eq (P0 : Vec Ideal S2000x128 .f32) (P1 : Vec Ideal S128x256 .bf16) (P2 : Vec Ideal S1x256 .f32)
    (P3 : Vec Ideal S256x40 .bf16) (P4 : Vec Ideal S1x40 .f32) :
    k0_pay2 (F := Ideal) P0 P1 P2 P3 P4 = lsLayer (logitsVec P0 P1 P2 P3 P4) := rfl

/-- The stored value is the layer applied to the body's first value. -/
theorem pay1_eq (P0 : Vec Ideal S2000x128 .f32) (P1 : Vec Ideal S128x256 .bf16) (P2 : Vec Ideal S1x256 .f32)
    (P3 : Vec Ideal S256x40 .bf16) (P4 : Vec Ideal S1x40 .f32) :
    k0_pay1 (F := Ideal) (k0_pay2 P0 P1 P2 P3 P4) (k0_pay3 P0 P1 P2 P3 P4) (k0_pay4 P0 P1 P2 P3 P4)
      = lsLayer (k0_pay2 (F := Ideal) P0 P1 P2 P3 P4) := rfl

/-- The stored value at `(p, q)`: the head of row `p` in the spelling `z − (M + L)`, at `q`. -/
theorem pay_eq (P0 : Vec Ideal S2000x128 .f32) (P1 : Vec Ideal S128x256 .bf16) (P2 : Vec Ideal S1x256 .f32)
    (P3 : Vec Ideal S256x40 .bf16) (P4 : Vec Ideal S1x40 .f32) (p : Fin 2000) (q : Fin 40) :
    k0_pay1 (F := Ideal) (k0_pay2 P0 P1 P2 P3 P4) (k0_pay3 P0 P1 P2 P3 P4) (k0_pay4 P0 P1 P2 P3 P4) (ix2 p q)
      = Cert.Spec.headK (fun a : Fin 128 => P0 (ix2 p a)) (fun (a : Fin 128) (k : Fin 256) => P1 (ix2 a k))
          (fun k : Fin 256 => P2 (ix2 (0 : Fin 1) k)) (fun (k : Fin 256) (c : Fin 40) => P3 (ix2 k c))
          (fun c : Fin 40 => P4 (ix2 (0 : Fin 1) c)) q := by
  refine (congrArg (fun v => v (ix2 p q)) (pay1_eq P0 P1 P2 P3 P4)).trans ?_
  refine (lsLayer_apply _ p q).trans ?_
  refine congrArg (fun z => Cert.Spec.lsmK z q) (funext fun k => ?_)
  refine (congrArg (fun v => v (ix2 p k)) (pay2_eq P0 P1 P2 P3 P4)).trans ?_
  refine (lsLayer_apply _ p k).trans ?_
  exact congrArg (fun z => Cert.Spec.lsmK z k) (funext fun c => logitsVec_apply P0 P1 P2 P3 P4 p c)

end Cert.KernelIdeal.Block

end
-- ==== Proof.KernelArray.lean ====
/-
  From the kernel's blocks to its whole result array.

  The grid has 25 points. At a point whose row block is `b` the kernel reads rows `2000·b … 2000·b + 1999` of the
  50000 × 128 feature array together with the whole weight matrices and bias rows, and writes rows
  `2000·b … 2000·b + 1999` of the 50000 × 40 result array. Given that the body's stored value at `(p, q)` is the head of
  row `p` of its feature block (`PayEq`, a hypothesis here), every point writes its block of `G` — the array whose row `r`
  is the head of row `r` of the feature array (`flushed_eq`) —, the 25 blocks tile the result array (`blocks_cover`:
  25 · 2000 = 50000, one column block of all 40 columns), and so the array after the run is `G` (`final`, `run`).
-/
import proofs.«167773_j20693152432219_2_alg».proof.Proof.KernelValue
import proofs.«167773_j20693152432219_2_alg».proof.Proof.Spec
import Idealize.ShloMosaic.Lib.Pipeline.Value
import Idealize.ShloMosaic.Lib.ValueIdx

noncomputable section

namespace Cert.KernelIdeal.Arr

open Cert.KernelIdeal Cert.KernelIdeal.Gen Cert.KernelIdeal.Value Idealize.ShloMosaic Idealize.ShloMosaic.TcCoe Idealize.SL.Sem Idealize.ShloMosaic.ValueIdx
open Idealize.ShloMosaic.Pipeline (Dat)

/-- The body's stored value at `(p, q)` is the head of row `p` of the feature block. -/
def PayEq : Prop := ∀ (P0 : Vec Ideal S2000x128 .f32) (P1 : Vec Ideal S128x256 .bf16) (P2 : Vec Ideal S1x256 .f32)
    (P3 : Vec Ideal S256x40 .bf16) (P4 : Vec Ideal S1x40 .f32) (p : Fin 2000) (q : Fin 40),
    k0_pay1 (F := Ideal) (k0_pay2 P0 P1 P2 P3 P4) (k0_pay3 P0 P1 P2 P3 P4) (k0_pay4 P0 P1 P2 P3 P4) (ix2 p q)
      = Cert.Spec.headK (fun a : Fin 128 => P0 (ix2 p a)) (fun (a : Fin 128) (k : Fin 256) => P1 (ix2 a k))
          (fun k : Fin 256 => P2 (ix2 (0 : Fin 1) k)) (fun (k : Fin 256) (c : Fin 40) => P3 (ix2 k c))
          (fun c : Fin 40 => P4 (ix2 (0 : Fin 1) c)) q

/-- The whole result array as the head of the arrays the region finds. -/
abbrev G (m : (ℓ : Loc nD τ sig) → Buf (Elt Ideal) ℓ) (c : Dev nD) : S50000x40.Idx → EReal :=
  Cert.Spec.arrK (V m c main_v43) (fun (a : Fin 128) (k : Fin 256) => V m c main_v44 (ix2 a k)) (fun k : Fin 256 => V m c main_v46 (ix2 (0 : Fin 1) k))
    (fun (k : Fin 256) (c' : Fin 40) => V m c main_v45 (ix2 k c')) (fun c' : Fin 40 => V m c main_v47 (ix2 (0 : Fin 1) c'))

/-! ## The index maps -/

/-- The offsets of a whole-block access, as the constant zero. -/
theorem zero_offsets : (![0, 0] : Fin 2 → Nat) = fun _ => 0 := funext fun a => by fin_cases a <;> rfl

/-- The printed index maps, decided over the 25 grid points: the feature window moves with the result window along
    the rows and stays at column block 0, as the result window does; the two weight matrices and the two bias rows are
    block (0, 0) at every point; the result's row block is at most 24. -/
theorem block_indices : ∀ t : Fin cfg0.N, win0_0.index t (0 : Fin 2) = win0_5.index t (0 : Fin 2)
    ∧ win0_0.index t (1 : Fin 2) = 0
    ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 24 :=
  (by decide +kernel : ∀ t : Fin grid0.N, _)

/-- Every one of the 25 row blocks of the result is some point's. -/
theorem row_blocks_onto : ∀ q0 : Fin 25, ∃ t : Fin cfg0.N, win0_5.index t = ![q0.val, 0] :=
  (by decide +kernel : ∀ q0 : Fin 25, ∃ t : Fin grid0.N, win0_5.index t = ![q0.val, 0])

/-! ## The blocks as entries of the arrays

A block's coordinate on an axis is the block index there times the block's extent plus the coordinate inside the block. -/

/-- Row `p` of the feature block at point `t` is row `r` of the feature array, `r` = row block × 2000 + `p`. -/
theorem feat_apply (m : (ℓ : Loc nD τ sig) → Buf (Elt Ideal) ℓ) (c : Dev nD) (t : Fin cfg0.N) (p : Fin 2000) (a : Fin 128) (r : Fin 50000)
    (hr : r.val = win0_5.index t (0 : Fin 2) * 2000 + 1 * p.val) :
    (iblk m c 0 t : Vec Ideal S2000x128 .f32) (ix2 p a) = V m c main_v43 (ix2 r a) := by
  obtain ⟨e0, e1, -⟩ := block_indices t
  show V m c main_v43 (((cfg0.win 0).blk t).view.emb (ix2 p a)) = V m c main_v43 (ix2 r a)
  refine congrArg (V m c main_v43) ?_
  funext d; apply Fin.ext
  match d with
  | ⟨0, _⟩ => show win0_0.index t (0 : Fin 2) * 2000 + 1 * p.val = r.val; omega
  | ⟨1, _⟩ => show win0_0.index t (1 : Fin 2) * 128 + 1 * a.val = a.val; omega

/-- The first weight block at every point is the whole first weight matrix. -/
theorem w1_apply (m : (ℓ : Loc nD τ sig) → Buf (Elt Ideal) ℓ) (c : Dev nD) (t : Fin cfg0.N) (a : Fin 128) (k : Fin 256) :
    (iblk m c 1 t : Vec Ideal S128x256 .bf16) (ix2 a k) = V m c main_v44 (ix2 a k) := by
  obtain ⟨-, -, -, e0, e1, -⟩ := block_indices t
  show V m c main_v44 (((cfg0.win 1).blk t).view.emb (ix2 a k)) = V m c main_v44 (ix2 a k)
  refine congrArg (V m c main_v44) ?_
  funext d; apply Fin.ext
  match d with
  | ⟨0, _⟩ => show win0_1.index t (0 : Fin 2) * 128 + 1 * a.val = a.val; omega
  | ⟨1, _⟩ => show win0_1.index t (1 : Fin 2) * 256 + 1 * k.val = k.val; omega

/-- The first bias block at every point is the whole first bias row. -/
theorem b1_apply (m : (ℓ : Loc nD τ sig) → Buf (Elt Ideal) ℓ) (c : Dev nD) (t : Fin cfg0.N) (k : Fin 256) :
    (iblk m c 2 t : Vec Ideal S1x256 .f32) (ix2 (0 : Fin 1) k) = V m c main_v46 (ix2 (0 : Fin 1) k) := by
  obtain ⟨-, -, -, -, -, e0, e1, -⟩ := block_indices t
  show V m c main_v46 (((cfg0.win 2).blk t).view.emb (ix2 (0 : Fin 1) k)) = V m c main_v46 (ix2 (0 : Fin 1) k)
  refine congrArg (V m c main_v46) ?_
  funext d; apply Fin.ext
  match d with
  | ⟨0, _⟩ => show win0_2.index t (0 : Fin 2) * 1 + 1 * (0 : Fin 1).val = (0 : Fin 1).val; omega
  | ⟨1, _⟩ => show win0_2.index t (1 : Fin 2) * 256 + 1 * k.val = k.val; omega

/-- The second weight block at every point is the whole second weight matrix. -/
theorem w2_apply (m : (ℓ : Loc nD τ sig) → Buf (Elt Ideal) ℓ) (c : Dev nD) (t : Fin cfg0.N) (k : Fin 256) (o : Fin 40) :
    (iblk m c 3 t : Vec Ideal S256x40 .bf16) (ix2 k o) = V m c main_v45 (ix2 k o) := by
  obtain ⟨-, -, -, -, -, -, -, e0, e1, -⟩ := block_indices t
  show V m c main_v45 (((cfg0.win 3).blk t).view.emb (ix2 k o)) = V m c main_v45 (ix2 k o)
  refine congrArg (V m c main_v45) ?_
  funext d; apply Fin.ext
  match d with
  | ⟨0, _⟩ => show win0_3.index t (0 : Fin 2) * 256 + 1 * k.val = k.val; omega
  | ⟨1, _⟩ => show win0_3.index t (1 : Fin 2) * 40 + 1 * o.val = o.val; omega

/-- The second bias block at every point is the whole second bias row. -/
theorem b2_apply (m : (ℓ : Loc nD τ sig) → Buf (Elt Ideal) ℓ) (c : Dev nD) (t : Fin cfg0.N) (o : Fin 40) :
    (iblk m c 4 t : Vec Ideal S1x40 .f32) (ix2 (0 : Fin 1) o) = V m c main_v47 (ix2 (0 : Fin 1) o) := by
  obtain ⟨-, -, -, -, -, -, -, -, -, e0, e1, -⟩ := block_indices t
  show V m c main_v47 (((cfg0.win 4).blk t).view.emb (ix2 (0 : Fin 1) o)) = V m c main_v47 (ix2 (0 : Fin 1) o)
  refine congrArg (V m c main_v47) ?_
  funext d; apply Fin.ext
  match d with
  | ⟨0, _⟩ => show win0_4.index t (0 : Fin 2) * 1 + 1 * (0 : Fin 1).val = (0 : Fin 1).val; omega
  | ⟨1, _⟩ => show win0_4.index t (1 : Fin 2) * 40 + 1 * o.val = o.val; omega

/-- Entry `(p, q)` of the result block at point `t` sits at `(r, q)` of the result array, `r` = row block × 2000 + `p`. -/
theorem out_emb (t : Fin cfg0.N) (p : Fin 2000) (q : Fin 40) (r : Fin 50000)
    (hr : r.val = win0_5.index t (0 : Fin 2) * 2000 + 1 * p.val) :
    ((cfg0.win 5).blk t).view.emb (ix2 p q) = (ix2 r q : S50000x40.Idx) := by
  obtain ⟨-, -, e1, -⟩ := block_indices t
  funext d; apply Fin.ext
  match d with
  | ⟨0, _⟩ => show win0_5.index t (0 : Fin 2) * 2000 + 1 * p.val = r.val; omega
  | ⟨1, _⟩ => show win0_5.index t (1 : Fin 2) * 40 + 1 * q.val = q.val; omega

/-- Entry `(r, q)` of `G`: the head of row `r` of the feature array, at `q`. -/
theorem G_apply (m : (ℓ : Loc nD τ sig) → Buf (Elt Ideal) ℓ) (c : Dev nD) (r : Fin 50000) (q : Fin 40) :
    G m c (ix2 r q) = Cert.Spec.headK (fun a : Fin 128 => V m c main_v43 (ix2 r a))
      (fun (a : Fin 128) (k : Fin 256) => V m c main_v44 (ix2 a k)) (fun k : Fin 256 => V m c main_v46 (ix2 (0 : Fin 1) k))
      (fun (k : Fin 256) (c' : Fin 40) => V m c main_v45 (ix2 k c')) (fun c' : Fin 40 => V m c main_v47 (ix2 (0 : Fin 1) c')) q := rfl

/-! ## What each point writes back -/

/-- WHAT POINT `t` WRITES BACK is block `t` of `G`: the body's stored value at `(p, q)` is the head of row `p` of the
    feature block, which is row `r` of the feature array for the row `r` of the result array that `(p, q)` sits in; the
    weights and biases it reads are the whole arrays. -/
theorem flushed_eq (hpay : PayEq) (m : (ℓ : Loc nD τ sig) → Buf (Elt Ideal) ℓ) (c : Dev nD) (t : Fin cfg0.N) :
    (dats m 0 c).flushed 5 t = ((cfg0.win 5).blk t).view.read (Elt Ideal) (G m c) := by
  rw [Value.flushed5]
  unfold out0_5
  rw [View.canon_unit_zero zero_offsets]
  simp only [View.ld_unit_zero (S := S2000x128) zero_offsets, View.ld_unit_zero (S := S128x256) zero_offsets,
    View.ld_unit_zero (S := S1x256) zero_offsets, View.ld_unit_zero (S := S256x40) zero_offsets,
    View.ld_unit_zero (S := S1x40) zero_offsets]
  funext j
  obtain ⟨p, q, rfl⟩ : ∃ (p : Fin 2000) (q : Fin 40), j = ix2 p q := ⟨j 0, j 1, eq_ix2 j⟩
  obtain ⟨-, -, -, -, -, -, -, -, -, -, -, h24⟩ := block_indices t
  have hp : p.val < 2000 := p.isLt
  let r : Fin 50000 := ⟨win0_5.index t (0 : Fin 2) * 2000 + 1 * p.val, by omega⟩
  show k0_pay1 (F := Ideal) (k0_pay2 (iblk m c 0 t) (iblk m c 1 t) (iblk m c 2 t) (iblk m c 3 t) (iblk m c 4 t))
      (k0_pay3 (iblk m c 0 t) (iblk m c 1 t) (iblk m c 2 t) (iblk m c 3 t) (iblk m c 4 t))
      (k0_pay4 (iblk m c 0 t) (iblk m c 1 t) (iblk m c 2 t) (iblk m c 3 t) (iblk m c 4 t)) (ix2 p q)
    = G m c (((cfg0.win 5).blk t).view.emb (ix2 p q))
  refine (hpay (iblk m c 0 t) (iblk m c 1 t) (iblk m c 2 t) (iblk m c 3 t) (iblk m c 4 t) p q).trans ?_
  refine Eq.trans ?_ (congrArg (G m c) (out_emb t p q r rfl)).symm
  refine Eq.trans ?_ (G_apply m c r q).symm
  have h0 : (fun a : Fin 128 => (iblk m c 0 t : Vec Ideal S2000x128 .f32) (ix2 p a)) = fun a : Fin 128 => V m c main_v43 (ix2 r a) :=
    funext fun a => feat_apply m c t p a r rfl
  have h1 : (fun (a : Fin 128) (k : Fin 256) => (iblk m c 1 t : Vec Ideal S128x256 .bf16) (ix2 a k)) = fun (a : Fin 128) (k : Fin 256) => V m c main_v44 (ix2 a k) :=
    funext fun a => funext fun k => w1_apply m c t a k
  have h2 : (fun k : Fin 256 => (iblk m c 2 t : Vec Ideal S1x256 .f32) (ix2 (0 : Fin 1) k)) = fun k : Fin 256 => V m c main_v46 (ix2 (0 : Fin 1) k) :=
    funext fun k => b1_apply m c t k
  have h3 : (fun (k : Fin 256) (o : Fin 40) => (iblk m c 3 t : Vec Ideal S256x40 .bf16) (ix2 k o)) = fun (k : Fin 256) (o : Fin 40) => V m c main_v45 (ix2 k o) :=
    funext fun k => funext fun o => w2_apply m c t k o
  have h4 : (fun o : Fin 40 => (iblk m c 4 t : Vec Ideal S1x40 .f32) (ix2 (0 : Fin 1) o)) = fun o : Fin 40 => V m c main_v47 (ix2 (0 : Fin 1) o) :=
    funext fun o => b2_apply m c t o
  rw [h0, h1, h2, h3, h4]

/-! ## The blocks tile the result array -/

/-- An index of the array is in point `t`'s block iff each coordinate is in the block's range on its axis. -/
theorem mem_block (t : Fin cfg0.N) (i : S50000x40.Idx) :
    i ∈ ((cfg0.win 5).blk t).view.set ↔ ∀ a : Fin 2, win0_5.index t a * S2000x40.size a ≤ (i a).val ∧ (i a).val < win0_5.index t a * S2000x40.size a + S2000x40.size a := by
  show i ∈ ((View.whole main_v48).slice (win0_5.rect t)).set ↔ _
  rw [View.set_slice_whole, Rect.mem_set_unit]
  exact Iff.rfl

/-- Every index of the 50000 × 40 array is in some point's block: row `r` in the block of row block `r / 2000`
    (25 · 2000 = 50000), the one column block holding all 40 columns. -/
theorem blocks_cover (i : S50000x40.Idx) :
    ∃ t : Fin cfg0.N, (cfg0.win 5).flush t = true ∧ i ∈ ((cfg0.win 5).blk t).view.set := by
  have hi0 : (i 0).val < 50000 := (i 0).isLt
  have hi1 : (i 1).val < 40 := (i 1).isLt
  obtain ⟨t, ht⟩ := row_blocks_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_block]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 40 ≤ (i 1).val ∧ (i 1).val < win0_5.index t (1 : Fin 2) * 40 + 40; omega

/-- THE ARRAY after the run is `G`: every point writes its block of `G`, and the blocks cover the array. -/
theorem final (hpay : PayEq) (m : (ℓ : Loc nD τ sig) → Buf (Elt Ideal) ℓ) (c : Dev nD) : (dats m 0 c).arrAt 5 cfg0.N = G m c :=
  (dats m 0 c).arrAt_eq_of_cover 5 (G m c) (fun t _ => flushed_eq hpay m c t) blocks_cover

/-! ## The run, read -/

/-- The run re-posted: the result array at `G` of the arrays the region finds, the arguments unchanged. -/
theorem run (hpay : PayEq) (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v48) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final hpay m c), (h c).2⟩) (Value.run_blocks m ρ)

end Cert.KernelIdeal.Arr

end
-- ==== Proof.KernelPrefix.lean ====
/- What the kernel program's host operations before its one region leave in the five arrays the region reads.

   The region reads: the propagated features `y` (buffer `main_v43`), the two weight matrices converted to
   bf16 (`main_v44`, `main_v45`) and the two bias vectors reshaped to one row (`main_v46`, `main_v47`).
   • The weights: at the ideal instance a conversion to a narrower float type is the identity, so each converted
     matrix holds, index by index, the argument it was converted from.
   • The biases: a reshape `[n] → [1, n]` keeps the row-major position, and the position of `(0, k)` in `[1, n]` is
     `0 * n + k = k`, the position of `k` in `[n]`.
   • The propagated features: `x = feats · ½`, three hops `h ← scatter-add over the edges' rows of
     (edge value ⊗ gather of h at the edges' columns, a negative column wrapped by + 50000)`, and
     `y = x + h₁ + h₂ + h₃`. The reference program prints the same graph of operations (a few of them in another
     order, which a composed term does not see), so `y` as a term of the four arguments is the reference's
     `val_main_v43` of those arguments: the two sides unfold to the same term. -/
import proofs.«167773_j20693152432219_2_alg».proof.Proof.Gen.KernelIdeal.Frame
import proofs.«167773_j20693152432219_2_alg».proof.Proof.RefRead
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Prefix

open Cert.KernelIdeal Cert.KernelIdeal.Gen Idealize.ShloMosaic Idealize.ShloMosaic.TcCoe Idealize.SL.Sem
  Idealize.ShloMosaic.StableHlo Idealize.ShloMosaic.ValueIdx

variable (m : (ℓ : Loc nD τ sig) → Buf (Elt Ideal) ℓ) (c : Dev nD)

/-! ## The weights: a conversion to bf16 is the identity at the ideal instance -/

/-- `W1` converted to bf16 holds `W1`. -/
theorem V_v44 (a : Fin 128) (k : Fin 256) : V m c main_v44 (ix2 a k) = m ((c : Thread nD τ).loc main_arg4) (ix2 a k) := by
  have e : (V m c main_v44 : S128x256.Idx → EReal)
      = (truncf .bf16 (m ((c : Thread nD τ).loc main_arg4) : FVec Ideal S128x256 .f32) bitsLt_bf16_f32 : FVec Ideal S128x256 .bf16) := by
    dsimp only [Gen.V, Gen.hostOps0]
    after_results_simp
  exact congrFun e (ix2 a k)

/-- `W2` converted to bf16 holds `W2`. -/
theorem V_v45 (k : Fin 256) (c' : Fin 40) : V m c main_v45 (ix2 k c') = m ((c : Thread nD τ).loc main_arg6) (ix2 k c') := by
  have e : (V m c main_v45 : S256x40.Idx → EReal)
      = (truncf .bf16 (m ((c : Thread nD τ).loc main_arg6) : FVec Ideal S256x40 .f32) bitsLt_bf16_f32 : FVec Ideal S256x40 .bf16) := by
    dsimp only [Gen.V, Gen.hostOps0]
    after_results_simp
  exact congrFun e (ix2 k c')

/-! ## The biases: a vector reshaped to one row -/

/-- `b1 : [256]` reshaped to `[1, 256]` holds `b1 k` at `(0, k)`. -/
theorem V_v46 (k : Fin 256) : V m c main_v46 (ix2 (0 : Fin 1) k) = m ((c : Thread nD τ).loc main_arg5) (ix1 k) := by
  have e : (V m c main_v46 : S1x256.Idx → EReal)
      = shapeCast S1x256 (m ((c : Thread nD τ).loc main_arg5) : S256.Idx → EReal) shapeCasts_S256_S1x256 := by
    dsimp only [Gen.V, Gen.hostOps0]
    after_results_simp
    rfl
  exact (congrFun e (ix2 (0 : Fin 1) k)).trans (shapeCast_a_1a_apply _ shapeCasts_S256_S1x256 (0 : Fin 1) k)

/-- `b2 : [40]` reshaped to `[1, 40]` holds `b2 c'` at `(0, c')`. -/
theorem V_v47 (c' : Fin 40) : V m c main_v47 (ix2 (0 : Fin 1) c') = m ((c : Thread nD τ).loc main_arg7) (ix1 c') := by
  have e : (V m c main_v47 : S1x40.Idx → EReal)
      = shapeCast S1x40 (m ((c : Thread nD τ).loc main_arg7) : S40.Idx → EReal) shapeCasts_S40_S1x40 := by
    dsimp only [Gen.V, Gen.hostOps0]
    after_results_simp
    rfl
  exact (congrFun e (ix2 (0 : Fin 1) c')).trans (shapeCast_a_1a_apply _ shapeCasts_S40_S1x40 (0 : Fin 1) c')

/-! ## The propagated features -/

set_option maxHeartbeats 1000000 in
/-- `y = x + h₁ + h₂ + h₃` as the kernel program computes it is the reference's `y` of the same four arguments:
    each buffer's contents rewritten to its operation's function of its operands' contents gives the composed term,
    and the reference's stages unfold to the same term. -/
theorem V_v43 : (V m c main_v43 : S50000x128.Idx → EReal)
    = Cert.ReferenceIdeal.Read.val_main_v43 (F := Ideal) (m ((c : Thread nD τ).loc main_arg0)) (m ((c : Thread nD τ).loc main_arg1))
        (m ((c : Thread nD τ).loc main_arg2)) (m ((c : Thread nD τ).loc main_arg3)) := by
  dsimp only [Gen.V, Gen.hostOps0]
  after_results_simp
  first | rfl | fail "the composed term is not the reference's"

end Cert.KernelIdeal.Prefix

end
-- ==== Proof.LibCat.lean ====
/-
  Reading a concatenation of two or of three buffers back from a run of host operations: the result holds the
  operation's function of each operand's contents at that operand's own reference, so that the operands' contents can
  in turn be read back. (The family of operand references is literal; under the operation's binder it is not, and the
  contents of "the k-th operand" could not be rewritten further.)
-/
import Idealize.ShloMosaic.Lib.StableHlo.Run

noncomputable section

namespace Cert.Lib

open Idealize.ShloMosaic Idealize.ShloMosaic.StableHlo Idealize.SL.Sem

variable {τ : Topo} {sig : RefSig} {Val : EltTy → Type}

/-- A two-operand concatenation's result, each operand's contents at its own reference. -/
theorem nary2_result' {x a y : Ref sig .tc}
    (f : ((k : Fin 2) → ((![x, a] : Fin 2 → Ref sig .tc) k).ty.Contents Val) → y.ty.Contents Val) (hxs hy)
    (F : Valuation τ sig Val) :
    (nary (τ := τ) ![x, a] y f hxs hy).result F (no_index (Proc.devRef .tc y))
      = f (Fin.cons (F (Proc.devRef .tc x)) (Fin.cons (F (Proc.devRef .tc a)) (fun i => i.elim0))) := by
  rw [nary_result]; congr 1; funext k; fin_cases k <;> rfl

/-- A three-operand concatenation's result, each operand's contents at its own reference. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- Contents carried to a typed reference's buffer type and back are the contents. -/
theorem ofBuf_toBuf {T : BufTy} (x : TRef sig T) (v : T.Contents Val) : x.ofBuf (x.toBuf v) = v := by
  obtain ⟨r, h, h2, h3⟩ := x
  subst h
  rfl
/-- Contents carried from a typed reference's buffer type and back are the contents. -/
theorem toBuf_ofBuf {T : BufTy} (x : TRef sig T) (v : x.ref.ty.Contents Val) : x.toBuf (x.ofBuf v) = v := by
  obtain ⟨r, h, h2, h3⟩ := x
  subst h
  rfl

/-- Folding a list of host operations cut in two: first the head part, then the tail part from what it leaves. -/
theorem after_append (l1 l2 : List (HloOp τ sig Val)) (V : Valuation τ sig Val) :
    after (l1 ++ l2) V = after l2 (after l1 V) := by
  induction l1 generalizing V with
  | nil => rfl
  | cons op l ih => exact ih (op.result V)

/-- The same two facts in rewriting form. -/
theorem nary2_result {x a y : Ref sig .tc}
    (f : ((k : Fin 2) → ((![x, a] : Fin 2 → Ref sig .tc) k).ty.Contents Val) → y.ty.Contents Val) (hxs hy)
    (F : Valuation τ sig Val) :
    (nary (τ := τ) ![x, a] y f hxs hy).result F (Proc.devRef .tc y)
      = f (Fin.cons (F (Proc.devRef .tc x)) (Fin.cons (F (Proc.devRef .tc a)) (fun i => i.elim0))) :=
  nary2_result' f hxs hy F
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) :=
  nary3_result' f hxs hy F

end Cert.Lib

/-- The results of a literal list of host operations by one simp pass, two- and three-operand concatenations included. -/
macro "after_results_cat" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Cert.Lib.nary2_result', Cert.Lib.nary3_result', Idealize.ShloMosaic.StableHlo.nary4_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

/-- Goes on reading inside a concatenation's operands, one rewrite per operation (the one-pass form does not enter them). -/
macro "finish_results_rw" : tactic =>
  `(tactic| (repeat (first
      | rw [Idealize.ShloMosaic.StableHlo.nullary_result] | rw [Idealize.ShloMosaic.StableHlo.unary_result] | rw [Idealize.ShloMosaic.StableHlo.binary_result]
      | rw [Idealize.ShloMosaic.StableHlo.ternary_result] | rw [Idealize.ShloMosaic.StableHlo.quaternary_result] | rw [Idealize.ShloMosaic.StableHlo.reshape_result]
      | rw [Cert.Lib.nary2_result] | rw [Cert.Lib.nary3_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.quaternary_result_ne]; rotate_left; decide)
      | (rw [Idealize.ShloMosaic.StableHlo.reshape_result_ne]; rotate_left; decide)
      | (rw [Idealize.ShloMosaic.StableHlo.nary_result_ne]; rotate_left; decide))))

end
-- ==== Proof.RefRunRead.lean ====
/-
  The reference's run, read back as its last stage. The fold of the reference's operations over the launch contents is
  cut into four stretches: the three propagation hops with their running sum, the two dense layers, and the two
  log-softmax calls. Each stretch's last result is read as a function of the contents the stretch starts from, held as
  variables or as an earlier stage left folded, so that the logits' term, which each log-softmax call reads four times,
  is never written out more than once. No operation writes an argument, so the arguments end as they began.
-/
import proofs.«167773_j20693152432219_2_alg».proof.Proof.RefRun
import proofs.«167773_j20693152432219_2_alg».proof.Proof.RefRead
import proofs.«167773_j20693152432219_2_alg».proof.Proof.LibCat

noncomputable section

namespace Cert.ReferenceIdeal.RunRead

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

/-! ## The operations, cut in four

The first stretch is the three propagation hops, up to their sum; the second the two dense layers; the third and the
fourth the two calls of the log-softmax. -/

/-- The propagation: the halved features, three hops of gather, scale and scatter-add, and the running sum of the four. -/
abbrev opsA : List (HloOp τ sig (Elt F)) :=
  [ nullary main_cst (constant S_ .f32 0x3F000000#32),
    unary main_cst main_v0 (broadcastInDim S50000x128 ![] bcast_S_S50000x128 : (⟨S_, .f32⟩ : BufTy).Contents (Elt F) → (⟨S50000x128, .f32⟩ : BufTy).Contents (Elt F)),
    binary main_arg0 main_v0 main_v1 (mulf : (⟨S50000x128, .f32⟩ : BufTy).Contents (Elt F) → (⟨S50000x128, .f32⟩ : BufTy).Contents (Elt F) → (⟨S50000x128, .f32⟩ : BufTy).Contents (Elt F)),
    unary main_arg3 main_v2 (broadcastInDim S800000x1 ![0] bcast_S800000_S800000x1_0 : (⟨S800000, .f32⟩ : BufTy).Contents (Elt F) → (⟨S800000x1, .f32⟩ : BufTy).Contents (Elt F)),
    nullary main_c (constantI S_ 32 0#32),
    unary main_c main_v3 (broadcastInDim S800000 ![] bcast_S_S800000 : (⟨S_, .i32⟩ : BufTy).Contents (Elt F) → (⟨S800000, .i32⟩ : BufTy).Contents (Elt F)),
    binary main_arg2 main_v3 main_v4 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v5 (broadcastInDim S800000 ![] bcast_S_S800000 : (⟨S_, .i32⟩ : BufTy).Contents (Elt F) → (⟨S800000, .i32⟩ : BufTy).Contents (Elt F)),
    binary main_arg2 main_v5 main_v6 (addi : (⟨S800000, .i32⟩ : BufTy).Contents (Elt F) → (⟨S800000, .i32⟩ : BufTy).Contents (Elt F) → (⟨S800000, .i32⟩ : BufTy).Contents (Elt F)),
    ternary main_v4 main_v6 main_arg2 main_v7 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v7 main_v8 (broadcastInDim S800000x1 ![0] bcast_S800000_S800000x1_0 : (⟨S800000, .i32⟩ : BufTy).Contents (Elt F) → (⟨S800000x1, .i32⟩ : BufTy).Contents (Elt F)),
    binary main_v1 main_v8 main_v9 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v2 main_v10 (broadcastInDim S800000x128 ![0, 1] bcast_S800000x1_S800000x128_0_1 : (⟨S800000x1, .f32⟩ : BufTy).Contents (Elt F) → (⟨S800000x128, .f32⟩ : BufTy).Contents (Elt F)),
    binary main_v10 main_v9 main_v11 (mulf : (⟨S800000x128, .f32⟩ : BufTy).Contents (Elt F) → (⟨S800000x128, .f32⟩ : BufTy).Contents (Elt F) → (⟨S800000x128, .f32⟩ : BufTy).Contents (Elt F)),
    nullary main_cst_1 (constant S_ .f32 0x00000000#32),
    unary main_cst_1 main_v12 (broadcastInDim S50000x128 ![] bcast_S_S50000x128 : (⟨S_, .f32⟩ : BufTy).Contents (Elt F) → (⟨S50000x128, .f32⟩ : BufTy).Contents (Elt F)),
    unary main_arg1 main_v13 (broadcastInDim S800000x1 ![0] bcast_S800000_S800000x1_0 : (⟨S800000, .i32⟩ : BufTy).Contents (Elt F) → (⟨S800000x1, .i32⟩ : BufTy).Contents (Elt F)),
    ternary main_v12 main_v13 main_v11 main_v14 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v1 main_v14 main_v15 (addf : (⟨S50000x128, .f32⟩ : BufTy).Contents (Elt F) → (⟨S50000x128, .f32⟩ : BufTy).Contents (Elt F) → (⟨S50000x128, .f32⟩ : BufTy).Contents (Elt F)),
    unary main_arg3 main_v16 (broadcastInDim S800000x1 ![0] bcast_S800000_S800000x1_0 : (⟨S800000, .f32⟩ : BufTy).Contents (Elt F) → (⟨S800000x1, .f32⟩ : BufTy).Contents (Elt F)),
    nullary main_c_2 (constantI S_ 32 0#32),
    unary main_c_2 main_v17 (broadcastInDim S800000 ![] bcast_S_S800000 : (⟨S_, .i32⟩ : BufTy).Contents (Elt F) → (⟨S800000, .i32⟩ : BufTy).Contents (Elt F)),
    binary main_arg2 main_v17 main_v18 (cmpi .slt : (⟨S800000, .i32⟩ : BufTy).Contents (Elt F) → (⟨S800000, .i32⟩ : BufTy).Contents (Elt F) → (⟨S800000, .i1⟩ : BufTy).Contents (Elt F)),
    nullary main_c_3 (constantI S_ 32 50000#32),
    unary main_c_3 main_v19 (broadcastInDim S800000 ![] bcast_S_S800000 : (⟨S_, .i32⟩ : BufTy).Contents (Elt F) → (⟨S800000, .i32⟩ : BufTy).Contents (Elt F)),
    binary main_arg2 main_v19 main_v20 (addi : (⟨S800000, .i32⟩ : BufTy).Contents (Elt F) → (⟨S800000, .i32⟩ : BufTy).Contents (Elt F) → (⟨S800000, .i32⟩ : BufTy).Contents (Elt F)),
    ternary main_v18 main_v20 main_arg2 main_v21 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v21 main_v22 (broadcastInDim S800000x1 ![0] bcast_S800000_S800000x1_0 : (⟨S800000, .i32⟩ : BufTy).Contents (Elt F) → (⟨S800000x1, .i32⟩ : BufTy).Contents (Elt F)),
    binary main_v14 main_v22 main_v23 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v16 main_v24 (broadcastInDim S800000x128 ![0, 1] bcast_S800000x1_S800000x128_0_1 : (⟨S800000x1, .f32⟩ : BufTy).Contents (Elt F) → (⟨S800000x128, .f32⟩ : BufTy).Contents (Elt F)),
    binary main_v24 main_v23 main_v25 (mulf : (⟨S800000x128, .f32⟩ : BufTy).Contents (Elt F) → (⟨S800000x128, .f32⟩ : BufTy).Contents (Elt F) → (⟨S800000x128, .f32⟩ : BufTy).Contents (Elt F)),
    nullary main_cst_4 (constant S_ .f32 0x00000000#32),
    unary main_cst_4 main_v26 (broadcastInDim S50000x128 ![] bcast_S_S50000x128 : (⟨S_, .f32⟩ : BufTy).Contents (Elt F) → (⟨S50000x128, .f32⟩ : BufTy).Contents (Elt F)),
    unary main_arg1 main_v27 (broadcastInDim S800000x1 ![0] bcast_S800000_S800000x1_0 : (⟨S800000, .i32⟩ : BufTy).Contents (Elt F) → (⟨S800000x1, .i32⟩ : BufTy).Contents (Elt F)),
    ternary main_v26 main_v27 main_v25 main_v28 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v15 main_v28 main_v29 (addf : (⟨S50000x128, .f32⟩ : BufTy).Contents (Elt F) → (⟨S50000x128, .f32⟩ : BufTy).Contents (Elt F) → (⟨S50000x128, .f32⟩ : BufTy).Contents (Elt F)),
    unary main_arg3 main_v30 (broadcastInDim S800000x1 ![0] bcast_S800000_S800000x1_0 : (⟨S800000, .f32⟩ : BufTy).Contents (Elt F) → (⟨S800000x1, .f32⟩ : BufTy).Contents (Elt F)),
    nullary main_c_5 (constantI S_ 32 0#32),
    unary main_c_5 main_v31 (broadcastInDim S800000 ![] bcast_S_S800000 : (⟨S_, .i32⟩ : BufTy).Contents (Elt F) → (⟨S800000, .i32⟩ : BufTy).Contents (Elt F)),
    binary main_arg2 main_v31 main_v32 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v33 (broadcastInDim S800000 ![] bcast_S_S800000 : (⟨S_, .i32⟩ : BufTy).Contents (Elt F) → (⟨S800000, .i32⟩ : BufTy).Contents (Elt F)),
    binary main_arg2 main_v33 main_v34 (addi : (⟨S800000, .i32⟩ : BufTy).Contents (Elt F) → (⟨S800000, .i32⟩ : BufTy).Contents (Elt F) → (⟨S800000, .i32⟩ : BufTy).Contents (Elt F)),
    ternary main_v32 main_v34 main_arg2 main_v35 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v35 main_v36 (broadcastInDim S800000x1 ![0] bcast_S800000_S800000x1_0 : (⟨S800000, .i32⟩ : BufTy).Contents (Elt F) → (⟨S800000x1, .i32⟩ : BufTy).Contents (Elt F)),
    binary main_v28 main_v36 main_v37 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v30 main_v38 (broadcastInDim S800000x128 ![0, 1] bcast_S800000x1_S800000x128_0_1 : (⟨S800000x1, .f32⟩ : BufTy).Contents (Elt F) → (⟨S800000x128, .f32⟩ : BufTy).Contents (Elt F)),
    binary main_v38 main_v37 main_v39 (mulf : (⟨S800000x128, .f32⟩ : BufTy).Contents (Elt F) → (⟨S800000x128, .f32⟩ : BufTy).Contents (Elt F) → (⟨S800000x128, .f32⟩ : BufTy).Contents (Elt F)),
    nullary main_cst_7 (constant S_ .f32 0x00000000#32),
    unary main_cst_7 main_v40 (broadcastInDim S50000x128 ![] bcast_S_S50000x128 : (⟨S_, .f32⟩ : BufTy).Contents (Elt F) → (⟨S50000x128, .f32⟩ : BufTy).Contents (Elt F)),
    unary main_arg1 main_v41 (broadcastInDim S800000x1 ![0] bcast_S800000_S800000x1_0 : (⟨S800000, .i32⟩ : BufTy).Contents (Elt F) → (⟨S800000x1, .i32⟩ : BufTy).Contents (Elt F)),
    ternary main_v40 main_v41 main_v39 main_v42 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v29 main_v42 main_v43 (addf : (⟨S50000x128, .f32⟩ : BufTy).Contents (Elt F) → (⟨S50000x128, .f32⟩ : BufTy).Contents (Elt F) → (⟨S50000x128, .f32⟩ : BufTy).Contents (Elt F)) ]

/-- The running sum divided by four, the hidden layer with its rectifier, the output layer. -/
abbrev opsB : List (HloOp τ sig (Elt F)) :=
  [ nullary main_cst_8 (constant S_ .f32 0x40800000#32),
    unary main_cst_8 main_v44 (broadcastInDim S50000x128 ![] bcast_S_S50000x128 : (⟨S_, .f32⟩ : BufTy).Contents (Elt F) → (⟨S50000x128, .f32⟩ : BufTy).Contents (Elt F)),
    binary main_v43 main_v44 main_v45 (Host.divf : (⟨S50000x128, .f32⟩ : BufTy).Contents (Elt F) → (⟨S50000x128, .f32⟩ : BufTy).Contents (Elt F) → (⟨S50000x128, .f32⟩ : BufTy).Contents (Elt F)),
    binary main_v45 main_arg4 main_v46 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg5 main_v47 (broadcastInDim S1x256 ![1] bcast_S256_S1x256_1 : (⟨S256, .f32⟩ : BufTy).Contents (Elt F) → (⟨S1x256, .f32⟩ : BufTy).Contents (Elt F)),
    unary main_v47 main_v48 (broadcastInDim S50000x256 ![0, 1] bcast_S1x256_S50000x256_0_1 : (⟨S1x256, .f32⟩ : BufTy).Contents (Elt F) → (⟨S50000x256, .f32⟩ : BufTy).Contents (Elt F)),
    binary main_v46 main_v48 main_v49 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x256, .f32⟩) main_call0_v0) (broadcastInDim S50000x256 ![] bcast_S_S50000x256),
    TRef.binary (TRef.of (T := ⟨S50000x256, .f32⟩) main_v49) (TRef.of (T := ⟨S50000x256, .f32⟩) main_call0_v0) (TRef.of (T := ⟨S50000x256, .f32⟩) main_v50) maximumf,
    binary main_v50 main_arg6 main_v51 ((fun l r => Host.dotGeneral dot_S50000x256_S256x40_S50000x40_1_0_0_1_n_n none l r) : (⟨S50000x256, .f32⟩ : BufTy).Contents (Elt F) → (⟨S256x40, .f32⟩ : BufTy).Contents (Elt F) → (⟨S50000x40, .f32⟩ : BufTy).Contents (Elt F)),
    unary main_arg7 main_v52 (broadcastInDim S1x40 ![1] bcast_S40_S1x40_1 : (⟨S40, .f32⟩ : BufTy).Contents (Elt F) → (⟨S1x40, .f32⟩ : BufTy).Contents (Elt F)),
    unary main_v52 main_v53 (broadcastInDim S50000x40 ![0, 1] bcast_S1x40_S50000x40_0_1 : (⟨S1x40, .f32⟩ : BufTy).Contents (Elt F) → (⟨S50000x40, .f32⟩ : BufTy).Contents (Elt F)),
    binary main_v51 main_v53 main_v54 (addf : (⟨S50000x40, .f32⟩ : BufTy).Contents (Elt F) → (⟨S50000x40, .f32⟩ : BufTy).Contents (Elt F) → (⟨S50000x40, .f32⟩ : BufTy).Contents (Elt F)) ]

/-- The first log-softmax call. -/
abbrev opsC : List (HloOp τ sig (Elt F)) :=
  [ TRef.nullary (TRef.of (T := ⟨S_, .f32⟩) main_call1_cst) (constant S_ .f32 0xFF800000#32),
    TRef.binary (TRef.of (T := ⟨S50000x40, .f32⟩) main_v54) (TRef.of (T := ⟨S_, .f32⟩) main_call1_cst) (TRef.of (T := ⟨S50000, .f32⟩) main_call1_v0) (fun x v => Host.reduce FloatOps.maximumf x v reducesTo_S50000x40_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x40, .f32⟩) main_call1_v4) (broadcastInDim S50000x40 ![0, 1] bcast_S50000x1_S50000x40_0_1),
    TRef.binary (TRef.of (T := ⟨S50000x40, .f32⟩) main_v54) (TRef.of (T := ⟨S50000x40, .f32⟩) main_call1_v4) (TRef.of (T := ⟨S50000x40, .f32⟩) main_call1_v5) subf,
    TRef.unary (TRef.of (T := ⟨S50000x40, .f32⟩) main_call1_v5) (TRef.of (T := ⟨S50000x40, .f32⟩) main_call1_v6) Host.exp,
    TRef.nullary (TRef.of (T := ⟨S_, .f32⟩) main_call1_cst_1) (constant S_ .f32 0x00000000#32),
    TRef.binary (TRef.of (T := ⟨S50000x40, .f32⟩) main_call1_v6) (TRef.of (T := ⟨S_, .f32⟩) main_call1_cst_1) (TRef.of (T := ⟨S50000, .f32⟩) main_call1_v7) (fun x v => Host.reduceAdd x v reducesTo_S50000x40_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x40, .f32⟩) main_call1_v10) (broadcastInDim S50000x40 ![0, 1] bcast_S50000x1_S50000x40_0_1),
    TRef.binary (TRef.of (T := ⟨S50000x40, .f32⟩) main_call1_v5) (TRef.of (T := ⟨S50000x40, .f32⟩) main_call1_v10) (TRef.of (T := ⟨S50000x40, .f32⟩) main_v55) subf ]

/-- The second log-softmax call. -/
abbrev opsD : List (HloOp τ sig (Elt F)) :=
  [ TRef.nullary (TRef.of (T := ⟨S_, .f32⟩) main_call2_cst) (constant S_ .f32 0xFF800000#32),
    TRef.binary (TRef.of (T := ⟨S50000x40, .f32⟩) main_v55) (TRef.of (T := ⟨S_, .f32⟩) main_call2_cst) (TRef.of (T := ⟨S50000, .f32⟩) main_call2_v0) (fun x v => Host.reduce FloatOps.maximumf x v reducesTo_S50000x40_S50000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_call2_v0) (TRef.of (T := ⟨S50000, .f32⟩) main_call2_v2) maximumf,
    TRef.unary (TRef.of (T := ⟨S50000, .f32⟩) main_call2_v2) (TRef.of (T := ⟨S50000x1, .f32⟩) main_call2_v3) (broadcastInDim S50000x1 ![0] bcast_S50000_S50000x1_0),
    TRef.unary (TRef.of (T := ⟨S50000x1, .f32⟩) main_call2_v3) (TRef.of (T := ⟨S50000x40, .f32⟩) main_call2_v4) (broadcastInDim S50000x40 ![0, 1] bcast_S50000x1_S50000x40_0_1),
    TRef.binary (TRef.of (T := ⟨S50000x40, .f32⟩) main_v55) (TRef.of (T := ⟨S50000x40, .f32⟩) main_call2_v4) (TRef.of (T := ⟨S50000x40, .f32⟩) main_call2_v5) subf,
    TRef.unary (TRef.of (T := ⟨S50000x40, .f32⟩) main_call2_v5) (TRef.of (T := ⟨S50000x40, .f32⟩) main_call2_v6) Host.exp,
    TRef.nullary (TRef.of (T := ⟨S_, .f32⟩) main_call2_cst_1) (constant S_ .f32 0x00000000#32),
    TRef.binary (TRef.of (T := ⟨S50000x40, .f32⟩) main_call2_v6) (TRef.of (T := ⟨S_, .f32⟩) main_call2_cst_1) (TRef.of (T := ⟨S50000, .f32⟩) main_call2_v7) (fun x v => Host.reduceAdd x v reducesTo_S50000x40_S50000_d1 h_S_),
    TRef.unary (TRef.of (T := ⟨S50000, .f32⟩) main_call2_v7) (TRef.of (T := ⟨S50000x1, .f32⟩) main_call2_v8) (broadcastInDim S50000x1 ![0] bcast_S50000_S50000x1_0),
    TRef.unary (TRef.of (T := ⟨S50000x1, .f32⟩) main_call2_v8) (TRef.of (T := ⟨S50000x1, .f32⟩) main_call2_v9) Host.log,
    TRef.unary (TRef.of (T := ⟨S50000x1, .f32⟩) main_call2_v9) (TRef.of (T := ⟨S50000x40, .f32⟩) main_call2_v10) (broadcastInDim S50000x40 ![0, 1] bcast_S50000x1_S50000x40_0_1),
    TRef.binary (TRef.of (T := ⟨S50000x40, .f32⟩) main_call2_v5) (TRef.of (T := ⟨S50000x40, .f32⟩) main_call2_v10) (TRef.of (T := ⟨S50000x40, .f32⟩) main_v56) subf ]

set_option maxRecDepth 8192 in
/-- The operations are the four stretches in order. -/
theorem ops_split : (ops : List (HloOp τ sig (Elt F))) = opsA ++ (opsB ++ (opsC ++ opsD)) := rfl

/-- Folding four stretches in a row: each from what the one before leaves. -/
theorem after_split4 (l1 l2 l3 l4 : List (HloOp τ sig (Elt F))) (V : Valuation τ sig (Elt F)) :
    after (l1 ++ (l2 ++ (l3 ++ l4))) V = after l4 (after l3 (after l2 (after l1 V))) := by
  simp only [Cert.Lib.after_append]

/-! ## What no operation writes -/

/-- An operation that writes one reference of a list writes within the list. -/
theorem writes_sub {W : List (Ref sig .tc)} {op : HloOp τ sig (Elt F)} (y : Ref sig .tc)
    (h : op.writes = {Proc.devRef .tc y}) (hy : y ∈ W) :
    op.writes ⊆ (W.map (Proc.devRef (τ := τ) .tc)).toFinset := by
  rw [h, Finset.singleton_subset_iff, List.mem_toFinset]
  exact List.mem_map_of_mem hy

/-- Every reference some operation writes: each operation's result, in program order. -/
abbrev written : List (Ref sig .tc) :=
  [main_cst, main_v0, main_v1, main_v2, main_c, main_v3, main_v4, main_c_0, main_v5, main_v6, main_v7, main_v8, main_v9, main_v10, main_v11, main_cst_1, main_v12, main_v13, main_v14, main_v15, main_v16, main_c_2, main_v17, main_v18, main_c_3, main_v19, main_v20, main_v21, main_v22, main_v23, main_v24, main_v25, main_cst_4, main_v26, main_v27, main_v28, main_v29, main_v30, main_c_5, main_v31, main_v32, main_c_6, main_v33, main_v34, main_v35, main_v36, main_v37, main_v38, main_v39, main_cst_7, main_v40, main_v41, main_v42, main_v43, main_cst_8, main_v44, main_v45, main_v46, main_v47, main_v48, main_v49, main_call0_cst, main_call0_v0, main_v50, main_v51, main_v52, main_v53, main_v54, main_call1_cst, main_call1_v0, main_call1_cst_0, main_call1_v1, main_call1_v2, main_call1_v3, main_call1_v4, main_call1_v5, main_call1_v6, main_call1_cst_1, main_call1_v7, main_call1_v8, main_call1_v9, main_call1_v10, main_v55, main_call2_cst, main_call2_v0, main_call2_cst_0, main_call2_v1, main_call2_v2, main_call2_v3, main_call2_v4, main_call2_v5, main_call2_v6, main_call2_cst_1, main_call2_v7, main_call2_v8, main_call2_v9, main_call2_v10, main_v56]

set_option maxRecDepth 8192 in
/-- Each operation writes its result only. -/
theorem ops_writes : (ops : List (HloOp τ sig (Elt F))).Forall fun op =>
    op.writes ⊆ (written.map (Proc.devRef (τ := τ) .tc)).toFinset :=
  ⟨writes_sub main_cst rfl (by decide),
   writes_sub main_v0 rfl (by decide),
   writes_sub main_v1 rfl (by decide),
   writes_sub main_v2 rfl (by decide),
   writes_sub main_c rfl (by decide),
   writes_sub main_v3 rfl (by decide),
   writes_sub main_v4 rfl (by decide),
   writes_sub main_c_0 rfl (by decide),
   writes_sub main_v5 rfl (by decide),
   writes_sub main_v6 rfl (by decide),
   writes_sub main_v7 rfl (by decide),
   writes_sub main_v8 rfl (by decide),
   writes_sub main_v9 rfl (by decide),
   writes_sub main_v10 rfl (by decide),
   writes_sub main_v11 rfl (by decide),
   writes_sub main_cst_1 rfl (by decide),
   writes_sub main_v12 rfl (by decide),
   writes_sub main_v13 rfl (by decide),
   writes_sub main_v14 rfl (by decide),
   writes_sub main_v15 rfl (by decide),
   writes_sub main_v16 rfl (by decide),
   writes_sub main_c_2 rfl (by decide),
   writes_sub main_v17 rfl (by decide),
   writes_sub main_v18 rfl (by decide),
   writes_sub main_c_3 rfl (by decide),
   writes_sub main_v19 rfl (by decide),
   writes_sub main_v20 rfl (by decide),
   writes_sub main_v21 rfl (by decide),
   writes_sub main_v22 rfl (by decide),
   writes_sub main_v23 rfl (by decide),
   writes_sub main_v24 rfl (by decide),
   writes_sub main_v25 rfl (by decide),
   writes_sub main_cst_4 rfl (by decide),
   writes_sub main_v26 rfl (by decide),
   writes_sub main_v27 rfl (by decide),
   writes_sub main_v28 rfl (by decide),
   writes_sub main_v29 rfl (by decide),
   writes_sub main_v30 rfl (by decide),
   writes_sub main_c_5 rfl (by decide),
   writes_sub main_v31 rfl (by decide),
   writes_sub main_v32 rfl (by decide),
   writes_sub main_c_6 rfl (by decide),
   writes_sub main_v33 rfl (by decide),
   writes_sub main_v34 rfl (by decide),
   writes_sub main_v35 rfl (by decide),
   writes_sub main_v36 rfl (by decide),
   writes_sub main_v37 rfl (by decide),
   writes_sub main_v38 rfl (by decide),
   writes_sub main_v39 rfl (by decide),
   writes_sub main_cst_7 rfl (by decide),
   writes_sub main_v40 rfl (by decide),
   writes_sub main_v41 rfl (by decide),
   writes_sub main_v42 rfl (by decide),
   writes_sub main_v43 rfl (by decide),
   writes_sub main_cst_8 rfl (by decide),
   writes_sub main_v44 rfl (by decide),
   writes_sub main_v45 rfl (by decide),
   writes_sub main_v46 rfl (by decide),
   writes_sub main_v47 rfl (by decide),
   writes_sub main_v48 rfl (by decide),
   writes_sub main_v49 rfl (by decide),
   writes_sub main_call0_cst rfl (by decide),
   writes_sub main_call0_v0 rfl (by decide),
   writes_sub main_v50 rfl (by decide),
   writes_sub main_v51 rfl (by decide),
   writes_sub main_v52 rfl (by decide),
   writes_sub main_v53 rfl (by decide),
   writes_sub main_v54 rfl (by decide),
   writes_sub main_call1_cst rfl (by decide),
   writes_sub main_call1_v0 rfl (by decide),
   writes_sub main_call1_cst_0 rfl (by decide),
   writes_sub main_call1_v1 rfl (by decide),
   writes_sub main_call1_v2 rfl (by decide),
   writes_sub main_call1_v3 rfl (by decide),
   writes_sub main_call1_v4 rfl (by decide),
   writes_sub main_call1_v5 rfl (by decide),
   writes_sub main_call1_v6 rfl (by decide),
   writes_sub main_call1_cst_1 rfl (by decide),
   writes_sub main_call1_v7 rfl (by decide),
   writes_sub main_call1_v8 rfl (by decide),
   writes_sub main_call1_v9 rfl (by decide),
   writes_sub main_call1_v10 rfl (by decide),
   writes_sub main_v55 rfl (by decide),
   writes_sub main_call2_cst rfl (by decide),
   writes_sub main_call2_v0 rfl (by decide),
   writes_sub main_call2_cst_0 rfl (by decide),
   writes_sub main_call2_v1 rfl (by decide),
   writes_sub main_call2_v2 rfl (by decide),
   writes_sub main_call2_v3 rfl (by decide),
   writes_sub main_call2_v4 rfl (by decide),
   writes_sub main_call2_v5 rfl (by decide),
   writes_sub main_call2_v6 rfl (by decide),
   writes_sub main_call2_cst_1 rfl (by decide),
   writes_sub main_call2_v7 rfl (by decide),
   writes_sub main_call2_v8 rfl (by decide),
   writes_sub main_call2_v9 rfl (by decide),
   writes_sub main_call2_v10 rfl (by decide),
   writes_sub main_v56 rfl (by decide)⟩

/-- A reference no operation writes holds after the run what it held before. -/
theorem kept (V : Valuation τ sig (Elt F)) {r : Ref sig .tc} (hr : r ∉ written) :
    after ops V (Proc.devRef .tc r) = V (Proc.devRef .tc r) :=
  after_of_writes_sub ops V ops_writes hr

/-- The propagation leaves the weights and biases as they were. -/
theorem keptA (V : Valuation τ sig (Elt F)) :
    after opsA V (Proc.devRef .tc main_arg4) = V (Proc.devRef .tc main_arg4) ∧ after opsA V (Proc.devRef .tc main_arg5) = V (Proc.devRef .tc main_arg5)
      ∧ after opsA V (Proc.devRef .tc main_arg6) = V (Proc.devRef .tc main_arg6) ∧ after opsA V (Proc.devRef .tc main_arg7) = V (Proc.devRef .tc main_arg7) := by
  refine ⟨?_, ?_, ?_, ?_⟩ <;> after_results_simp

/-! ## Each stretch read back

Each lemma takes the contents the stretch reads as hypotheses over variables and gives the stretch's last result as the
corresponding stage of the reference, so that no stage's term is ever written twice. -/

variable (x0 : (⟨S50000x128, .f32⟩ : BufTy).Contents (Elt F)) (x1 x2 : (⟨S800000, .i32⟩ : BufTy).Contents (Elt F)) (x3 : (⟨S800000, .f32⟩ : BufTy).Contents (Elt F)) (x4 : (⟨S128x256, .f32⟩ : BufTy).Contents (Elt F)) (x5 : (⟨S256, .f32⟩ : BufTy).Contents (Elt F)) (x6 : (⟨S256x40, .f32⟩ : BufTy).Contents (Elt F)) (x7 : (⟨S40, .f32⟩ : BufTy).Contents (Elt F))

/-- After the propagation, the running sum holds the halved features plus their three successive propagations. -/
theorem readA (V : Valuation τ sig (Elt F))
    (h0 : V (Proc.devRef .tc main_arg0) = x0) (h1 : V (Proc.devRef .tc main_arg1) = x1) (h2 : V (Proc.devRef .tc main_arg2) = x2) (h3 : V (Proc.devRef .tc main_arg3) = x3) :
    after opsA V (Proc.devRef .tc main_v43) = val_main_v43 x0 x1 x2 x3 := by
  after_results_simp
  simp only [h0, h1, h2, h3]
  simp only [val_main_cst, val_main_v0, val_main_v1, val_main_v2, val_main_c, val_main_v3, val_main_v4, val_main_c_0, val_main_v5, val_main_v6, val_main_v7, val_main_v8, val_main_v9, val_main_v10, val_main_v11, val_main_cst_1, val_main_v12, val_main_v13, val_main_v14, val_main_v15, val_main_v16, val_main_c_2, val_main_v17, val_main_v18, val_main_c_3, val_main_v19, val_main_v20, val_main_v21, val_main_v22, val_main_v23, val_main_v24, val_main_v25, val_main_cst_4, val_main_v26, val_main_v27, val_main_v28, val_main_v29, val_main_v30, val_main_c_5, val_main_v31, val_main_v32, val_main_c_6, val_main_v33, val_main_v34, val_main_v35, val_main_v36, val_main_v37, val_main_v38, val_main_v39, val_main_cst_7, val_main_v40, val_main_v41, val_main_v42, val_main_v43]

/-- After the dense layers, the logits, from the propagated features and the weights and biases. -/
theorem readB (V : Valuation τ sig (Elt F))
    (h43 : V (Proc.devRef .tc main_v43) = val_main_v43 x0 x1 x2 x3)
    (h4 : V (Proc.devRef .tc main_arg4) = x4) (h5 : V (Proc.devRef .tc main_arg5) = x5) (h6 : V (Proc.devRef .tc main_arg6) = x6) (h7 : V (Proc.devRef .tc main_arg7) = x7) :
    after opsB V (Proc.devRef .tc main_v54) = val_main_v54 x0 x1 x2 x3 x4 x5 x6 x7 := by
  after_results_simp
  simp only [Cert.Lib.ofBuf_toBuf]
  simp only [TRef.ofBuf, TRef.toBuf, cast_cast, cast_eq]
  simp only [h43, h4, h5, h6, h7]
  simp only [val_main_cst_8, val_main_v44, val_main_v45, val_main_v46, val_main_v47, val_main_v48, val_main_v49, val_main_call0_cst, val_main_call0_v0, val_main_v50, val_main_v51, val_main_v52, val_main_v53, val_main_v54]

/-- After the first log-softmax call, the log-softmax of the logits. -/
theorem readC (V : Valuation τ sig (Elt F))
    (h : V (Proc.devRef .tc main_v54) = val_main_v54 x0 x1 x2 x3 x4 x5 x6 x7) :
    after opsC V (Proc.devRef .tc main_v55) = val_main_v55 x0 x1 x2 x3 x4 x5 x6 x7 := by
  after_results_simp
  simp only [Cert.Lib.ofBuf_toBuf]
  simp only [TRef.ofBuf, TRef.toBuf, cast_cast, cast_eq]
  simp only [h]
  simp only [val_main_call1_cst, val_main_call1_v0, val_main_call1_cst_0, val_main_call1_v1, val_main_call1_v2, val_main_call1_v3, val_main_call1_v4, val_main_call1_v5, val_main_call1_v6, val_main_call1_cst_1, val_main_call1_v7, val_main_call1_v8, val_main_call1_v9, val_main_call1_v10, val_main_v55]

/-- After the second log-softmax call, the log-softmax of the first call's result. -/
theorem readD (V : Valuation τ sig (Elt F))
    (h : V (Proc.devRef .tc main_v55) = val_main_v55 x0 x1 x2 x3 x4 x5 x6 x7) :
    after opsD V (Proc.devRef .tc main_v56) = val_main_v56 x0 x1 x2 x3 x4 x5 x6 x7 := by
  after_results_simp
  simp only [Cert.Lib.ofBuf_toBuf]
  simp only [TRef.ofBuf, TRef.toBuf, cast_cast, cast_eq]
  simp only [h]
  simp only [val_main_call2_cst, val_main_call2_v0, val_main_call2_cst_0, val_main_call2_v1, val_main_call2_v2, val_main_call2_v3, val_main_call2_v4, val_main_call2_v5, val_main_call2_v6, val_main_call2_cst_1, val_main_call2_v7, val_main_call2_v8, val_main_call2_v9, val_main_call2_v10, val_main_v56]

/-! ## The run -/

/-- The whole fold at the result: the four stretches chained, each reading what the one before left. -/
theorem read_v56 (m : (ℓ : Loc nD τ sig) → Buf (Elt F) ℓ) (c : Dev nD) :
    after ops (launchContents m c) (Proc.devRef .tc main_v56)
      = val_main_v56 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (congrFun ((congrArg (fun l => after l (launchContents m c)) ops_split).trans (after_split4 ..)) _).trans ?_
  obtain ⟨k4, k5, k6, k7⟩ := keptA (launchContents m c)
  exact readD _ _ _ _ _ _ _ _ _ (readC _ _ _ _ _ _ _ _ _ (readB _ _ _ _ _ _ _ _ _
    (readA _ _ _ _ _ rfl rfl rfl rfl) k4 k5 k6 k7))

/-- On every device, for any float values, from any memory with zero counters: every weakly fair execution of the
    reference terminates with its result the last stage of the reference read at the arguments' launch contents, and
    the arguments as they were. -/
theorem run_gen (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v56)
        = val_main_v56 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v56).trans (read_v56 m c),
    (h c main_arg0).trans (kept _ (by decide)),
    (h c main_arg1).trans (kept _ (by decide)),
    (h c main_arg2).trans (kept _ (by decide)),
    (h c main_arg3).trans (kept _ (by decide)),
    (h c main_arg4).trans (kept _ (by decide)),
    (h c main_arg5).trans (kept _ (by decide)),
    (h c main_arg6).trans (kept _ (by decide)),
    (h c main_arg7).trans (kept _ (by decide))⟩) (run_raw m ρ)

/-- The same at the ideal values. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v56)
        = val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  run_gen m ρ

end Cert.ReferenceIdeal.RunRead

end
-- ==== Proof.RefHead.lean ====
/-
  The reference program's result, read at an index.

  Entry (r, c) of the 50000 × 40 result is the head, in the spelling that divides by the word of 4 and computes the
  log-softmax as (z − M) − L, of row r of the 50000 × 128 array of aggregated features: the features divided by 4,
  times W1 plus b1, the maximum with the zero word, times W2 plus b2, and the row log-softmax twice. Each step is
  read at an index built from its coordinates; a row maximum is the fold of max from −∞ over the row's 40 entries,
  a row sum the zero word plus the sum over them.
-/
import proofs.«167773_j20693152432219_2_alg».proof.Proof.RefRead
import proofs.«167773_j20693152432219_2_alg».proof.Proof.Spec
import Idealize.ShloMosaic.PureOps.Ideal.Laws
import Idealize.ShloMosaic.PureOps.Reduce
import Idealize.ShloMosaic.Lib.ValueIdx
import Idealize.ShloMosaic.Lib.Pipeline.Value

noncomputable section

namespace Cert.ReferenceIdeal.Head

open Cert.ReferenceIdeal Cert.ReferenceIdeal.Gen Cert.ReferenceIdeal.Read Idealize.ShloMosaic Idealize.ShloMosaic.ValueIdx
open scoped BigOperators

/-! ## A row maximum -/

/-- Row `r` with coordinate `k` put back on the dropped column axis is (r, k). -/
theorem lift_row (h : S50000x40.Reduces [1] S50000) (r : Fin 50000) (k : Fin (S50000x40.size 1)) :
    h.lift (ix1 r) k = ix2 r (⟨k.val, k.isLt⟩ : Fin 40) := by
  funext c; apply Fin.ext
  match c with | ⟨0, _⟩ => rfl | ⟨1, _⟩ => rfl

/-- A reduce with a maximum body over the columns, at row `r`: the fold of max from the initial value over the row. -/
theorem reduce_max_row (z : S50000x40.Idx → EReal) (init : S_.Idx → EReal) (h' : S50000x40.ReducesTo [1] S50000)
    (hu : 0 < S_.numel) (r : Fin 50000) :
    Host.reduce (FloatOps.maximumf (F := Ideal) (φ := .f32)) z init h' hu (ix1 r)
      = (Finset.univ : Finset (Fin 40)).fold max (init (Shape.Idx.first hu)) (fun k => z (ix2 r k)) := by
  have h : S50000x40.Reduces [1] S50000 := by decide
  refine (Host.reduce_eq_fold_single (FloatOps.maximumf (F := Ideal) (φ := .f32)) z init h' h hu (ix1 r)).trans ?_
  have hf : (z ∘ h.lift (ix1 r)) = fun k : Fin 40 => z (ix2 r k) := funext fun k => congrArg z (lift_row h r k)
  exact congrArg (fun f => Finset.fold max (init (Shape.Idx.first hu)) f (Finset.univ : Finset (Fin 40))) hf

section Rows

variable (x0 : (⟨S50000x128, .f32⟩ : BufTy).Contents (Elt Ideal)) (x1 x2 : (⟨S800000, .i32⟩ : BufTy).Contents (Elt Ideal))
    (x3 : (⟨S800000, .f32⟩ : BufTy).Contents (Elt Ideal)) (x4 : (⟨S128x256, .f32⟩ : BufTy).Contents (Elt Ideal))
    (x5 : (⟨S256, .f32⟩ : BufTy).Contents (Elt Ideal)) (x6 : (⟨S256x40, .f32⟩ : BufTy).Contents (Elt Ideal))
    (x7 : (⟨S40, .f32⟩ : BufTy).Contents (Elt Ideal))

/-! ## The first row log-softmax, of the logits -/

/-- The row maximum of the logits, taken once more against −∞. -/
theorem call1_max (r : Fin 50000) :
    val_main_call1_v2 (F := Ideal) x0 x1 x2 x3 x4 x5 x6 x7 (ix1 r) = Cert.Spec.rowMaxR (fun k : Fin 40 => val_main_v54 (F := Ideal) x0 x1 x2 x3 x4 x5 x6 x7 (ix2 r k)) := by
  rw [val_main_call1_v2_apply, val_main_call1_v1_apply, val_main_call1_cst_0_apply]
  unfold val_main_call1_v0
  generalize val_main_v54 (F := Ideal) x0 x1 x2 x3 x4 x5 x6 x7 = z
  rw [reduce_max_row]
  rfl

/-- An entry of the logits less its row's maximum. -/
theorem call1_shift (r : Fin 50000) (c : Fin 40) :
    val_main_call1_v5 (F := Ideal) x0 x1 x2 x3 x4 x5 x6 x7 (ix2 r c)
      = val_main_v54 (F := Ideal) x0 x1 x2 x3 x4 x5 x6 x7 (ix2 r c) - Cert.Spec.rowMaxR (fun k : Fin 40 => val_main_v54 (F := Ideal) x0 x1 x2 x3 x4 x5 x6 x7 (ix2 r k)) := by
  rw [val_main_call1_v5_apply, val_main_call1_v4_apply, val_main_call1_v3_apply]
  have e : idx_main_call1_v3 (idx_main_call1_v4 (ix2 r c)) = ix1 r := funext fun a => by match a with | ⟨0, _⟩ => rfl
  rw [e, call1_max]
  rfl

/-- The row's sum of exponentials about that maximum, started from the zero word. -/
theorem call1_sum (r : Fin 50000) :
    val_main_call1_v7 (F := Ideal) x0 x1 x2 x3 x4 x5 x6 x7 (ix1 r) = Cert.Spec.expSumR (fun k : Fin 40 => val_main_v54 (F := Ideal) x0 x1 x2 x3 x4 x5 x6 x7 (ix2 r k)) := by
  rw [val_main_call1_v7_apply]
  refine congrArg (val_main_call1_cst_1 (F := Ideal) (Shape.Idx.first h_S_) + ·) (Finset.sum_congr rfl fun k _ => ?_)
  have e : idx_main_call1_v7 (ix1 r) k = ix2 r k := funext fun a => by match a with | ⟨0, _⟩ => rfl | ⟨1, _⟩ => rfl
  rw [e, val_main_call1_v6_apply, call1_shift]
  rfl

/-- A row of the result of the row log-softmax of the logits. -/
theorem call1_row (r : Fin 50000) (c : Fin 40) :
    val_main_v55 (F := Ideal) x0 x1 x2 x3 x4 x5 x6 x7 (ix2 r c) = Cert.Spec.lsmR (fun k : Fin 40 => val_main_v54 (F := Ideal) x0 x1 x2 x3 x4 x5 x6 x7 (ix2 r k)) c := by
  rw [val_main_v55_apply, call1_shift, val_main_call1_v10_apply, val_main_call1_v9_apply, val_main_call1_v8_apply]
  have e : idx_main_call1_v8 (idx_main_call1_v10 (ix2 r c)) = ix1 r := funext fun a => by match a with | ⟨0, _⟩ => rfl
  rw [e, call1_sum]
  rfl

/-! ## The second row log-softmax, of the first one's result -/

/-- The row maximum of the first log-softmax, taken once more against −∞. -/
theorem call2_max (r : Fin 50000) :
    val_main_call2_v2 (F := Ideal) x0 x1 x2 x3 x4 x5 x6 x7 (ix1 r) = Cert.Spec.rowMaxR (fun k : Fin 40 => val_main_v55 (F := Ideal) x0 x1 x2 x3 x4 x5 x6 x7 (ix2 r k)) := by
  rw [val_main_call2_v2_apply, val_main_call2_v1_apply, val_main_call2_cst_0_apply]
  unfold val_main_call2_v0
  generalize val_main_v55 (F := Ideal) x0 x1 x2 x3 x4 x5 x6 x7 = z
  rw [reduce_max_row]
  rfl

/-- An entry of the first log-softmax less its row's maximum. -/
theorem call2_shift (r : Fin 50000) (c : Fin 40) :
    val_main_call2_v5 (F := Ideal) x0 x1 x2 x3 x4 x5 x6 x7 (ix2 r c)
      = val_main_v55 (F := Ideal) x0 x1 x2 x3 x4 x5 x6 x7 (ix2 r c) - Cert.Spec.rowMaxR (fun k : Fin 40 => val_main_v55 (F := Ideal) x0 x1 x2 x3 x4 x5 x6 x7 (ix2 r k)) := by
  rw [val_main_call2_v5_apply, val_main_call2_v4_apply, val_main_call2_v3_apply]
  have e : idx_main_call2_v3 (idx_main_call2_v4 (ix2 r c)) = ix1 r := funext fun a => by match a with | ⟨0, _⟩ => rfl
  rw [e, call2_max]
  rfl

/-- The row's sum of exponentials about that maximum, started from the zero word. -/
theorem call2_sum (r : Fin 50000) :
    val_main_call2_v7 (F := Ideal) x0 x1 x2 x3 x4 x5 x6 x7 (ix1 r) = Cert.Spec.expSumR (fun k : Fin 40 => val_main_v55 (F := Ideal) x0 x1 x2 x3 x4 x5 x6 x7 (ix2 r k)) := by
  rw [val_main_call2_v7_apply]
  refine congrArg (val_main_call2_cst_1 (F := Ideal) (Shape.Idx.first h_S_) + ·) (Finset.sum_congr rfl fun k _ => ?_)
  have e : idx_main_call2_v7 (ix1 r) k = ix2 r k := funext fun a => by match a with | ⟨0, _⟩ => rfl | ⟨1, _⟩ => rfl
  rw [e, val_main_call2_v6_apply, call2_shift]
  rfl

/-- A row of the result of the row log-softmax of the first log-softmax. -/
theorem call2_row (r : Fin 50000) (c : Fin 40) :
    val_main_v56 (F := Ideal) x0 x1 x2 x3 x4 x5 x6 x7 (ix2 r c) = Cert.Spec.lsmR (fun k : Fin 40 => val_main_v55 (F := Ideal) x0 x1 x2 x3 x4 x5 x6 x7 (ix2 r k)) c := by
  rw [val_main_v56_apply, call2_shift, val_main_call2_v10_apply, val_main_call2_v9_apply, val_main_call2_v8_apply]
  have e : idx_main_call2_v8 (idx_main_call2_v10 (ix2 r c)) = ix1 r := funext fun a => by match a with | ⟨0, _⟩ => rfl
  rw [e, call2_sum]
  rfl

/-! ## The two dense layers -/

/-- An entry of the features: the aggregated entry divided by the word of 4. -/
theorem feat_row (r : Fin 50000) (a : Fin 128) :
    val_main_v45 (F := Ideal) x0 x1 x2 x3 (ix2 r a)
      = Ideal.div (val_main_v43 (F := Ideal) x0 x1 x2 x3 (ix2 r a)) Cert.Spec.four := by
  rw [val_main_v45_apply, val_main_v44_apply, val_main_cst_8_apply]
  rfl

/-- An entry of the hidden layer. -/
theorem hidden_row (r : Fin 50000) (k : Fin 256) :
    val_main_v50 (F := Ideal) x0 x1 x2 x3 x4 x5 (ix2 r k)
      = Cert.Spec.hidden (fun a : Fin 128 => Ideal.div (val_main_v43 (F := Ideal) x0 x1 x2 x3 (ix2 r a)) Cert.Spec.four)
          (fun (a : Fin 128) (k : Fin 256) => x4 (ix2 a k)) (fun k : Fin 256 => x5 (ix1 k)) k := by
  rw [val_main_v50_apply, val_main_call0_v0_apply, val_main_call0_cst_apply, val_main_v49_apply, val_main_v48_apply,
    val_main_v47_apply, val_main_v46_apply]
  have eb : idx_main_v47 (idx_main_v48 (ix2 r k)) = ix1 k := funext fun a => by match a with | ⟨0, _⟩ => rfl
  have es : (∑ a : Fin 128, val_main_v45 (F := Ideal) x0 x1 x2 x3 (lidx_main_v46 (ix2 r k) a) * x4 (ridx_main_v46 (ix2 r k) a))
      = ∑ a : Fin 128, Ideal.div (val_main_v43 (F := Ideal) x0 x1 x2 x3 (ix2 r a)) Cert.Spec.four * x4 (ix2 a k) :=
    Finset.sum_congr rfl fun a _ => by
      have el : lidx_main_v46 (ix2 r k) a = ix2 r a := funext fun d => by match d with | ⟨0, _⟩ => rfl | ⟨1, _⟩ => rfl
      have er : ridx_main_v46 (ix2 r k) a = ix2 a k := funext fun d => by match d with | ⟨0, _⟩ => rfl | ⟨1, _⟩ => rfl
      rw [el, er, feat_row]
  rw [eb, es]
  rfl

/-- An entry of the logits. -/
theorem logits_row (r : Fin 50000) (c : Fin 40) :
    val_main_v54 (F := Ideal) x0 x1 x2 x3 x4 x5 x6 x7 (ix2 r c)
      = Cert.Spec.logits (fun a : Fin 128 => Ideal.div (val_main_v43 (F := Ideal) x0 x1 x2 x3 (ix2 r a)) Cert.Spec.four)
          (fun (a : Fin 128) (k : Fin 256) => x4 (ix2 a k)) (fun k : Fin 256 => x5 (ix1 k))
          (fun (k : Fin 256) (c : Fin 40) => x6 (ix2 k c)) (fun c : Fin 40 => x7 (ix1 c)) c := by
  rw [val_main_v54_apply, val_main_v53_apply, val_main_v52_apply, val_main_v51_apply]
  have eb : idx_main_v52 (idx_main_v53 (ix2 r c)) = ix1 c := funext fun a => by match a with | ⟨0, _⟩ => rfl
  have es : (∑ k : Fin 256, val_main_v50 (F := Ideal) x0 x1 x2 x3 x4 x5 (lidx_main_v51 (ix2 r c) k) * x6 (ridx_main_v51 (ix2 r c) k))
      = ∑ k : Fin 256, Cert.Spec.hidden (fun a : Fin 128 => Ideal.div (val_main_v43 (F := Ideal) x0 x1 x2 x3 (ix2 r a)) Cert.Spec.four)
          (fun (a : Fin 128) (k : Fin 256) => x4 (ix2 a k)) (fun k : Fin 256 => x5 (ix1 k)) k * x6 (ix2 k c) :=
    Finset.sum_congr rfl fun k _ => by
      have el : lidx_main_v51 (ix2 r c) k = ix2 r k := funext fun d => by match d with | ⟨0, _⟩ => rfl | ⟨1, _⟩ => rfl
      have er : ridx_main_v51 (ix2 r c) k = ix2 k c := funext fun d => by match d with | ⟨0, _⟩ => rfl | ⟨1, _⟩ => rfl
      rw [el, er, hidden_row]
  rw [eb, es]
  rfl

end Rows

/-! ## The result -/

/-- The reference's result is the head, in the second spelling, of each row of the aggregated features. -/
theorem ref_head_eq (x0 : (⟨S50000x128, .f32⟩ : BufTy).Contents (Elt Ideal)) (x1 x2 : (⟨S800000, .i32⟩ : BufTy).Contents (Elt Ideal))
    (x3 : (⟨S800000, .f32⟩ : BufTy).Contents (Elt Ideal)) (x4 : (⟨S128x256, .f32⟩ : BufTy).Contents (Elt Ideal))
    (x5 : (⟨S256, .f32⟩ : BufTy).Contents (Elt Ideal)) (x6 : (⟨S256x40, .f32⟩ : BufTy).Contents (Elt Ideal))
    (x7 : (⟨S40, .f32⟩ : BufTy).Contents (Elt Ideal)) :
    val_main_v56 (F := Ideal) x0 x1 x2 x3 x4 x5 x6 x7
      = Cert.Spec.arrR (val_main_v43 (F := Ideal) x0 x1 x2 x3) (fun (a : Fin 128) (k : Fin 256) => x4 (ix2 a k)) (fun k : Fin 256 => x5 (ix1 k))
          (fun (k : Fin 256) (c : Fin 40) => x6 (ix2 k c)) (fun c : Fin 40 => x7 (ix1 c)) := by
  funext i
  obtain ⟨r, c, rfl⟩ : ∃ (r : Fin 50000) (c : Fin 40), i = ix2 r c := ⟨i 0, i 1, eq_ix2 i⟩
  refine (call2_row x0 x1 x2 x3 x4 x5 x6 x7 r c).trans ?_
  refine (congrArg (fun z => Cert.Spec.lsmR z c) (funext fun k => (call1_row x0 x1 x2 x3 x4 x5 x6 x7 r k).trans
    (congrArg (fun z => Cert.Spec.lsmR z k) (funext fun k' => logits_row x0 x1 x2 x3 x4 x5 x6 x7 r k')))).trans ?_
  rfl

end Cert.ReferenceIdeal.Head

end
-- ==== Proof.RealClosure.lean ====
/-
  Real-valued extended reals are closed under the operations the two programs use: sums, differences, products,
  maxima, finite sums and the exponential; and the float words the programs spell denote the numbers they
  name (−∞, 0, 1/4, 1/2, 4).
-/
import proofs.«167773_j20693152432219_2_alg».proof.Proof.Spec

noncomputable section

namespace Cert.Spec

open Idealize.ShloMosaic
open scoped BigOperators

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

/-- An extended real that is neither infinity is a real number. -/
theorem isReal_of_ne {x : EReal} (h1 : x ≠ ⊥) (h2 : x ≠ ⊤) : IsReal x :=
  ⟨x.toReal, (EReal.coe_toReal h2 h1).symm⟩

theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

/-- A finite sum of real numbers is a real number. -/
theorem IsReal.sum {ι : Type*} (s : Finset ι) (f : ι → EReal) (h : ∀ i ∈ s, IsReal (f i)) :
    IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

theorem IsReal.exp {x : EReal} (hx : IsReal x) : IsReal (Ideal.exp x) := by
  obtain ⟨a, rfl⟩ := hx; exact ⟨Real.exp a, rfl⟩

/-- The word `0xFF800000` is −∞. -/
theorem negInf_eq : negInf = ⊥ := by
  simp [negInf, Ideal.ofBits, Ideal.ieee]

/-- The word `0x00000000` is 0. -/
theorem zero32_eq : zero32 = 0 := by
  simp [zero32, Ideal.ofBits, Ideal.ieee]

/-- The word `0x3E800000` is 1/4. -/
theorem quarter_eq : quarter = ((1 / 4 : ℝ) : EReal) := by
  simp [quarter, Ideal.ofBits, Ideal.ieee, -EReal.coe_mul]; norm_num

/-- The word `0x40800000` is 4. -/
theorem four_eq : four = ((4 : ℝ) : EReal) := by
  simp [four, Ideal.ofBits, Ideal.ieee, -EReal.coe_mul]; norm_num

/-- The word `0x3F000000` is 1/2. -/
theorem half_eq : Ideal.ofBits .f32 0x3F000000#32 = ((1 / 2 : ℝ) : EReal) := by
  simp [Ideal.ofBits, Ideal.ieee, -EReal.coe_mul]; norm_num

theorem isReal_zero32 : IsReal zero32 := ⟨0, by rw [zero32_eq]; rfl⟩
theorem isReal_quarter : IsReal quarter := ⟨1 / 4, quarter_eq⟩
theorem isReal_four : IsReal four := ⟨4, four_eq⟩
theorem isReal_half : IsReal (Ideal.ofBits .f32 0x3F000000#32) := ⟨1 / 2, half_eq⟩

end Cert.Spec

end
-- ==== Proof.HeadAlgebra.lean ====
/-
  The two spellings of the classifier head agree on real arguments.

  Scaling a feature by the word of 1/4 and dividing it by the word of 4 agree on every extended real. The two
  spellings of the row log-softmax, `z j − (M + L)` and `(z j − M) − L`, agree as soon as the row maximum `M`
  is a real number, because `−(M + L) = −M − L` can fail on the extended reals only when `M` is an infinity.
  The maximum of a nonempty row of real numbers is real; the logits of a real feature row under real weights and
  biases are real; and the log-softmax of a real row is again a real row, since the sum of the exponentials is a
  positive real number, whose logarithm is real. So both applications of the log-softmax may be rewritten.
-/
import proofs.«167773_j20693152432219_2_alg».proof.Proof.RealClosure

noncomputable section

namespace Cert.Spec

open Idealize.ShloMosaic Idealize.ShloMosaic.ValueIdx
open scoped BigOperators

/-- The coercion of a finite sum of real numbers is the sum of the coercions. -/
private theorem coe_finset_sum_real {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- `x − (M + L) = (x − M) − L` when `M` is real: the negation distributes over `M + L` because `M` is
    neither infinity. -/
private theorem sub_add_eq_sub_sub_of_isReal (x L : EReal) {M : EReal} (hM : IsReal M) :
    x - (M + L) = (x - M) - L := by
  rw [sub_eq_add_neg x (M + L), EReal.neg_add (Or.inl hM.ne_bot) (Or.inl hM.ne_top),
    sub_eq_add_neg (-M) L, ← add_assoc, ← sub_eq_add_neg x M, ← sub_eq_add_neg (x - M) L]

section Row

variable {n : Nat}

/-- The maximum of a nonempty row of real numbers is a real number: it is above its first entry, hence not −∞,
    and every entry and the starting value −∞ are below +∞, hence so is their maximum. -/
theorem rowMax_isReal [NeZero n] (z : Fin n → EReal) (hz : ∀ j, IsReal (z j)) : IsReal (rowMax z) := by
  refine isReal_of_ne (LT.lt.ne' ?_) (LT.lt.ne ?_)
  · unfold rowMax
    rw [Finset.lt_fold_max]
    exact Or.inr ⟨0, Finset.mem_univ _, bot_lt_iff_ne_bot.mpr (hz 0).ne_bot⟩
  · unfold rowMax
    rw [Finset.fold_max_lt]
    exact ⟨by rw [negInf_eq]; exact bot_lt_top, fun x _ => lt_top_iff_ne_top.mpr (hz x).ne_top⟩

/-- Taking the maximum once more against −∞ changes nothing. -/
theorem rowMaxR_eq (z : Fin n → EReal) : rowMaxR z = rowMax z := by
  unfold rowMaxR
  rw [negInf_eq]
  exact bot_sup_eq _

/-- Starting the sum from the zero word changes nothing. -/
theorem expSumR_eq (z : Fin n → EReal) : expSumR z = expSumK z := by
  unfold expSumR expSumK
  rw [rowMaxR_eq, zero32_eq, zero_add]

/-- On a nonempty row of real numbers the two spellings of the log-softmax agree. -/
theorem lsm_eq [NeZero n] (z : Fin n → EReal) (hz : ∀ j, IsReal (z j)) : lsmR z = lsmK z := by
  funext j
  unfold lsmR lsmK
  rw [rowMaxR_eq, expSumR_eq]
  exact (sub_add_eq_sub_sub_of_isReal (z j) _ (rowMax_isReal z hz)).symm

/-- The sum of the exponentials of a nonempty real row about its maximum is a positive real number. -/
private theorem expSumK_pos [NeZero n] (z : Fin n → EReal) (hz : ∀ j, IsReal (z j)) :
    ∃ r : ℝ, 0 < r ∧ expSumK z = (r : EReal) := by
  obtain ⟨m, hm⟩ := rowMax_isReal z hz
  choose f hf using hz
  refine ⟨∑ k : Fin n, Real.exp (f k - m),
    Finset.sum_pos (fun k _ => Real.exp_pos _) ⟨0, Finset.mem_univ _⟩, ?_⟩
  unfold expSumK
  rw [coe_finset_sum_real]
  refine Finset.sum_congr rfl fun k _ => ?_
  rw [hm, hf k, ← EReal.coe_sub]
  rfl

/-- Its logarithm is a real number. -/
private theorem log_expSumK_isReal [NeZero n] (z : Fin n → EReal) (hz : ∀ j, IsReal (z j)) :
    IsReal (Ideal.log (expSumK z)) := by
  obtain ⟨r, hr, he⟩ := expSumK_pos z hz
  rw [he, Ideal.log_coe, if_neg (not_le.mpr hr)]
  exact isReal_coe _

/-- The log-softmax of a nonempty row of real numbers is a row of real numbers. -/
theorem lsmK_isReal [NeZero n] (z : Fin n → EReal) (hz : ∀ j, IsReal (z j)) (j : Fin n) :
    IsReal (lsmK z j) :=
  (hz j).sub ((rowMax_isReal z hz).add (log_expSumK_isReal z hz))

end Row

section Head

variable {a h o : Nat}

/-- The hidden layer of a real row under real weights and biases is real. -/
private theorem hidden_isReal (x : Fin a → EReal) (W1 : Fin a → Fin h → EReal) (b1 : Fin h → EReal)
    (hx : ∀ i, IsReal (x i)) (hW1 : ∀ i k, IsReal (W1 i k)) (hb1 : ∀ k, IsReal (b1 k)) (k : Fin h) :
    IsReal (hidden x W1 b1 k) :=
  ((IsReal.sum _ _ fun i _ => (hx i).mul (hW1 i k)).add (hb1 k)).max isReal_zero32

/-- The logits of a real row under real weights and biases are real. -/
theorem logits_isReal (x : Fin a → EReal) (W1 : Fin a → Fin h → EReal) (b1 : Fin h → EReal)
    (W2 : Fin h → Fin o → EReal) (b2 : Fin o → EReal)
    (hx : ∀ i, IsReal (x i)) (hW1 : ∀ i k, IsReal (W1 i k)) (hb1 : ∀ k, IsReal (b1 k))
    (hW2 : ∀ k c, IsReal (W2 k c)) (hb2 : ∀ c, IsReal (b2 c)) (c : Fin o) :
    IsReal (logits x W1 b1 W2 b2 c) :=
  (IsReal.sum _ _ fun k _ => (hidden_isReal x W1 b1 hx hW1 hb1 k).mul (hW2 k c)).add (hb2 c)

/-- Dividing by the word of 4 is multiplying by the word of 1/4, on every extended real. -/
private theorem div_four_eq (x : EReal) : Ideal.div x four = x * quarter := by
  rw [four_eq, quarter_eq]
  exact Ideal.div_coe (by norm_num : (4 : ℝ) ≠ 0) x

/-- The two spellings of the head agree on a real feature row under real weights and biases. -/
theorem head_eq [NeZero o] (y : Fin a → EReal) (W1 : Fin a → Fin h → EReal) (b1 : Fin h → EReal)
    (W2 : Fin h → Fin o → EReal) (b2 : Fin o → EReal)
    (hy : ∀ i, IsReal (y i)) (hW1 : ∀ i k, IsReal (W1 i k)) (hb1 : ∀ k, IsReal (b1 k))
    (hW2 : ∀ k c, IsReal (W2 k c)) (hb2 : ∀ c, IsReal (b2 c)) :
    headK y W1 b1 W2 b2 = headR y W1 b1 W2 b2 := by
  unfold headK headR
  have hs : (fun i => Ideal.div (y i) four) = fun i => y i * quarter := funext fun i => div_four_eq (y i)
  rw [hs]
  have hz : ∀ c, IsReal (logits (fun i => y i * quarter) W1 b1 W2 b2 c) :=
    logits_isReal _ W1 b1 W2 b2 (fun i => (hy i).mul isReal_quarter) hW1 hb1 hW2 hb2
  rw [lsm_eq _ hz, lsm_eq _ (lsmK_isReal _ hz)]

end Head

/-- The two spellings of the whole result array agree on real arguments: row by row, by `head_eq`. -/
theorem arr_eq (Y : (⟨2, ![50000, 128]⟩ : Shape).Idx → EReal) (W1 : Fin 128 → Fin 256 → EReal) (b1 : Fin 256 → EReal)
    (W2 : Fin 256 → Fin 40 → EReal) (b2 : Fin 40 → EReal)
    (hY : ∀ i, IsReal (Y i)) (hW1 : ∀ a k, IsReal (W1 a k)) (hb1 : ∀ k, IsReal (b1 k))
    (hW2 : ∀ k c, IsReal (W2 k c)) (hb2 : ∀ c, IsReal (b2 c)) :
    arrK Y W1 b1 W2 b2 = arrR Y W1 b1 W2 b2 := by
  funext i
  unfold arrK arrR
  exact congrFun (head_eq _ W1 b1 W2 b2 (fun _ => hY _) hW1 hb1 hW2 hb2) _

end Cert.Spec

end
-- ==== Proof.PropReal.lean ====
/-
  Real inputs propagate to real outputs through the graph stage of the reference program.

  The stage computes `x = feats · ½`, then three hops. A hop gathers rows of the current array `h` along one
  integer index array, multiplies each gathered row by an edge value, and scatter-adds the products into a zero
  array along the other integer index array; the running total `y` starts at `x` and adds each hop's result.

  Every entry of a gather is some entry of its operand. Every entry of a scatter-add is the operand's entry plus a
  finite sum of update entries (which ones depends on the integer indices, but the sum is finite whatever they
  hold). The reals are closed under products, sums and finite sums, and the words of ½ and 0 are real numbers. So
  every entry of every intermediate array, and of the total, is a real number as soon as every entry of the
  features and of the edge values is; the two integer index arrays are arbitrary.
-/
import proofs.«167773_j20693152432219_2_alg».proof.Proof.RefRead
import proofs.«167773_j20693152432219_2_alg».proof.Proof.RealClosure
import Idealize.ShloMosaic.PureOps.Ideal
import Idealize.ShloMosaic.PureOps.Ideal.Laws
import Idealize.ShloMosaic.Lib.ValueIdx

noncomputable section

namespace Cert.ReferenceIdeal.PropReal

open Cert.ReferenceIdeal Cert.ReferenceIdeal.Read Idealize.ShloMosaic Cert.Spec
open scoped BigOperators

/-! ### The four array operations keep entries real -/

/-- Every entry of a gather is an entry of its operand. -/
theorem gather_real {s si t : Shape} {w : Nat} (d : GatherDims s si t) (x : s.Idx → EReal) (idx : IVec si w)
    (hx : ∀ i, IsReal (x i)) : ∀ j, IsReal (Host.gather d x idx j) :=
  fun j => hx (d.operandIdx j idx)

/-- Every entry of a scatter-add is an operand entry plus a finite sum of update entries. -/
theorem scatterAdd_real {s si u : Shape} {w : Nat} (d : ScatterDims s si u) (x : FVec Ideal s .f32)
    (idx : IVec si w) (upd : FVec Ideal u .f32) (hx : ∀ i, IsReal (x i)) (hu : ∀ j, IsReal (upd j)) :
    ∀ i, IsReal (Host.scatterAdd (F := Ideal) d x idx upd i) := by
  intro i
  show IsReal (Ideal.hostScatterAdd d x idx upd i)
  unfold Ideal.hostScatterAdd
  exact (hx i).add (IsReal.sum _ _ fun j _ => hu j)

/-- An entrywise product of real arrays is real. -/
theorem mulf_real {s : Shape} (x y : FVec Ideal s .f32) (hx : ∀ i, IsReal (x i)) (hy : ∀ i, IsReal (y i)) :
    ∀ i, IsReal (mulf x y i) :=
  fun i => (hx i).mul (hy i)

/-- An entrywise sum of real arrays is real. -/
theorem addf_real {s : Shape} (x y : FVec Ideal s .f32) (hx : ∀ i, IsReal (x i)) (hy : ∀ i, IsReal (y i)) :
    ∀ i, IsReal (addf x y i) :=
  fun i => (hx i).add (hy i)

/-- Rewriting the entry under `IsReal`. -/
theorem isReal_of_eq {a b : EReal} (e : a = b) (h : IsReal b) : IsReal a := e ▸ h

/-! ### The scaled features `x = feats · ½` -/

theorem v0_real : ∀ i, IsReal (val_main_v0 (F := Ideal) i) := fun i =>
  isReal_of_eq ((val_main_v0_apply (F := Ideal) i).trans (val_main_cst_apply _)) isReal_half

theorem v1_real (x0 : (⟨S50000x128, .f32⟩ : BufTy).Contents (Elt Ideal)) (h0 : ∀ i, IsReal (x0 i)) : ∀ i, IsReal (val_main_v1 (F := Ideal) x0 i) :=
  mulf_real x0 (val_main_v0 (F := Ideal)) h0 v0_real

/-! ### The zero array every scatter-add starts from -/

theorem v12_real : ∀ i, IsReal (val_main_v12 (F := Ideal) i) := fun i =>
  isReal_of_eq ((val_main_v12_apply (F := Ideal) i).trans (val_main_cst_1_apply _)) isReal_zero32

theorem v26_real : ∀ i, IsReal (val_main_v26 (F := Ideal) i) := fun i =>
  isReal_of_eq ((val_main_v26_apply (F := Ideal) i).trans (val_main_cst_4_apply _)) isReal_zero32

theorem v40_real : ∀ i, IsReal (val_main_v40 (F := Ideal) i) := fun i =>
  isReal_of_eq ((val_main_v40_apply (F := Ideal) i).trans (val_main_cst_7_apply _)) isReal_zero32

/-! ### The edge values broadcast along the feature axis: each entry is an edge value -/

theorem v10_real (x3 : (⟨S800000, .f32⟩ : BufTy).Contents (Elt Ideal)) (h3 : ∀ i, IsReal (x3 i)) : ∀ i, IsReal (val_main_v10 (F := Ideal) x3 i) := fun i =>
  isReal_of_eq ((val_main_v10_apply (F := Ideal) x3 i).trans (val_main_v2_apply x3 _)) (h3 _)

theorem v24_real (x3 : (⟨S800000, .f32⟩ : BufTy).Contents (Elt Ideal)) (h3 : ∀ i, IsReal (x3 i)) : ∀ i, IsReal (val_main_v24 (F := Ideal) x3 i) := fun i =>
  isReal_of_eq ((val_main_v24_apply (F := Ideal) x3 i).trans (val_main_v16_apply x3 _)) (h3 _)

theorem v38_real (x3 : (⟨S800000, .f32⟩ : BufTy).Contents (Elt Ideal)) (h3 : ∀ i, IsReal (x3 i)) : ∀ i, IsReal (val_main_v38 (F := Ideal) x3 i) := fun i =>
  isReal_of_eq ((val_main_v38_apply (F := Ideal) x3 i).trans (val_main_v30_apply x3 _)) (h3 _)

/-! ### First hop: gather from `x`, weigh, scatter-add -/

theorem v9_real (x0 : (⟨S50000x128, .f32⟩ : BufTy).Contents (Elt Ideal)) (x2 : (⟨S800000, .i32⟩ : BufTy).Contents (Elt Ideal)) (h0 : ∀ i, IsReal (x0 i)) :
    ∀ i, IsReal (val_main_v9 (F := Ideal) x0 x2 i) :=
  gather_real _ (val_main_v1 (F := Ideal) x0) (val_main_v8 (F := Ideal) x2) (v1_real x0 h0)

theorem v11_real (x0 : (⟨S50000x128, .f32⟩ : BufTy).Contents (Elt Ideal)) (x2 : (⟨S800000, .i32⟩ : BufTy).Contents (Elt Ideal)) (x3 : (⟨S800000, .f32⟩ : BufTy).Contents (Elt Ideal)) (h0 : ∀ i, IsReal (x0 i)) (h3 : ∀ i, IsReal (x3 i)) :
    ∀ i, IsReal (val_main_v11 (F := Ideal) x0 x2 x3 i) :=
  mulf_real (val_main_v10 (F := Ideal) x3) (val_main_v9 (F := Ideal) x0 x2) (v10_real x3 h3) (v9_real x0 x2 h0)

theorem v14_real (x0 : (⟨S50000x128, .f32⟩ : BufTy).Contents (Elt Ideal)) (x1 x2 : (⟨S800000, .i32⟩ : BufTy).Contents (Elt Ideal))
    (x3 : (⟨S800000, .f32⟩ : BufTy).Contents (Elt Ideal)) (h0 : ∀ i, IsReal (x0 i)) (h3 : ∀ i, IsReal (x3 i)) :
    ∀ i, IsReal (val_main_v14 (F := Ideal) x0 x1 x2 x3 i) :=
  scatterAdd_real _ (val_main_v12 (F := Ideal)) (val_main_v13 (F := Ideal) x1) (val_main_v11 (F := Ideal) x0 x2 x3)
    v12_real (v11_real x0 x2 x3 h0 h3)

theorem v15_real (x0 : (⟨S50000x128, .f32⟩ : BufTy).Contents (Elt Ideal)) (x1 x2 : (⟨S800000, .i32⟩ : BufTy).Contents (Elt Ideal))
    (x3 : (⟨S800000, .f32⟩ : BufTy).Contents (Elt Ideal)) (h0 : ∀ i, IsReal (x0 i)) (h3 : ∀ i, IsReal (x3 i)) :
    ∀ i, IsReal (val_main_v15 (F := Ideal) x0 x1 x2 x3 i) :=
  addf_real (val_main_v1 (F := Ideal) x0) (val_main_v14 (F := Ideal) x0 x1 x2 x3) (v1_real x0 h0)
    (v14_real x0 x1 x2 x3 h0 h3)

/-! ### Second hop: gather from the first hop's result -/

theorem v23_real (x0 : (⟨S50000x128, .f32⟩ : BufTy).Contents (Elt Ideal)) (x1 x2 : (⟨S800000, .i32⟩ : BufTy).Contents (Elt Ideal))
    (x3 : (⟨S800000, .f32⟩ : BufTy).Contents (Elt Ideal)) (h0 : ∀ i, IsReal (x0 i)) (h3 : ∀ i, IsReal (x3 i)) :
    ∀ i, IsReal (val_main_v23 (F := Ideal) x0 x1 x2 x3 i) :=
  gather_real _ (val_main_v14 (F := Ideal) x0 x1 x2 x3) (val_main_v22 (F := Ideal) x2) (v14_real x0 x1 x2 x3 h0 h3)

theorem v25_real (x0 : (⟨S50000x128, .f32⟩ : BufTy).Contents (Elt Ideal)) (x1 x2 : (⟨S800000, .i32⟩ : BufTy).Contents (Elt Ideal))
    (x3 : (⟨S800000, .f32⟩ : BufTy).Contents (Elt Ideal)) (h0 : ∀ i, IsReal (x0 i)) (h3 : ∀ i, IsReal (x3 i)) :
    ∀ i, IsReal (val_main_v25 (F := Ideal) x0 x1 x2 x3 i) :=
  mulf_real (val_main_v24 (F := Ideal) x3) (val_main_v23 (F := Ideal) x0 x1 x2 x3) (v24_real x3 h3)
    (v23_real x0 x1 x2 x3 h0 h3)

theorem v28_real (x0 : (⟨S50000x128, .f32⟩ : BufTy).Contents (Elt Ideal)) (x1 x2 : (⟨S800000, .i32⟩ : BufTy).Contents (Elt Ideal))
    (x3 : (⟨S800000, .f32⟩ : BufTy).Contents (Elt Ideal)) (h0 : ∀ i, IsReal (x0 i)) (h3 : ∀ i, IsReal (x3 i)) :
    ∀ i, IsReal (val_main_v28 (F := Ideal) x0 x1 x2 x3 i) :=
  scatterAdd_real _ (val_main_v26 (F := Ideal)) (val_main_v27 (F := Ideal) x1) (val_main_v25 (F := Ideal) x0 x1 x2 x3)
    v26_real (v25_real x0 x1 x2 x3 h0 h3)

theorem v29_real (x0 : (⟨S50000x128, .f32⟩ : BufTy).Contents (Elt Ideal)) (x1 x2 : (⟨S800000, .i32⟩ : BufTy).Contents (Elt Ideal))
    (x3 : (⟨S800000, .f32⟩ : BufTy).Contents (Elt Ideal)) (h0 : ∀ i, IsReal (x0 i)) (h3 : ∀ i, IsReal (x3 i)) :
    ∀ i, IsReal (val_main_v29 (F := Ideal) x0 x1 x2 x3 i) :=
  addf_real (val_main_v15 (F := Ideal) x0 x1 x2 x3) (val_main_v28 (F := Ideal) x0 x1 x2 x3)
    (v15_real x0 x1 x2 x3 h0 h3) (v28_real x0 x1 x2 x3 h0 h3)

/-! ### Third hop: gather from the second hop's result -/

theorem v37_real (x0 : (⟨S50000x128, .f32⟩ : BufTy).Contents (Elt Ideal)) (x1 x2 : (⟨S800000, .i32⟩ : BufTy).Contents (Elt Ideal))
    (x3 : (⟨S800000, .f32⟩ : BufTy).Contents (Elt Ideal)) (h0 : ∀ i, IsReal (x0 i)) (h3 : ∀ i, IsReal (x3 i)) :
    ∀ i, IsReal (val_main_v37 (F := Ideal) x0 x1 x2 x3 i) :=
  gather_real _ (val_main_v28 (F := Ideal) x0 x1 x2 x3) (val_main_v36 (F := Ideal) x2) (v28_real x0 x1 x2 x3 h0 h3)

theorem v39_real (x0 : (⟨S50000x128, .f32⟩ : BufTy).Contents (Elt Ideal)) (x1 x2 : (⟨S800000, .i32⟩ : BufTy).Contents (Elt Ideal))
    (x3 : (⟨S800000, .f32⟩ : BufTy).Contents (Elt Ideal)) (h0 : ∀ i, IsReal (x0 i)) (h3 : ∀ i, IsReal (x3 i)) :
    ∀ i, IsReal (val_main_v39 (F := Ideal) x0 x1 x2 x3 i) :=
  mulf_real (val_main_v38 (F := Ideal) x3) (val_main_v37 (F := Ideal) x0 x1 x2 x3) (v38_real x3 h3)
    (v37_real x0 x1 x2 x3 h0 h3)

theorem v42_real (x0 : (⟨S50000x128, .f32⟩ : BufTy).Contents (Elt Ideal)) (x1 x2 : (⟨S800000, .i32⟩ : BufTy).Contents (Elt Ideal))
    (x3 : (⟨S800000, .f32⟩ : BufTy).Contents (Elt Ideal)) (h0 : ∀ i, IsReal (x0 i)) (h3 : ∀ i, IsReal (x3 i)) :
    ∀ i, IsReal (val_main_v42 (F := Ideal) x0 x1 x2 x3 i) :=
  scatterAdd_real _ (val_main_v40 (F := Ideal)) (val_main_v41 (F := Ideal) x1) (val_main_v39 (F := Ideal) x0 x1 x2 x3)
    v40_real (v39_real x0 x1 x2 x3 h0 h3)

/-! ### The total -/

/-- Every entry of the propagated array is a real number when every feature and every edge value is. -/
theorem prop_real (x0 : (⟨S50000x128, .f32⟩ : BufTy).Contents (Elt Ideal)) (x1 x2 : (⟨S800000, .i32⟩ : BufTy).Contents (Elt Ideal))
    (x3 : (⟨S800000, .f32⟩ : BufTy).Contents (Elt Ideal)) (h0 : ∀ i, IsReal (x0 i)) (h3 : ∀ i, IsReal (x3 i)) :
    ∀ i, IsReal (val_main_v43 (F := Ideal) x0 x1 x2 x3 i) :=
  addf_real (val_main_v29 (F := Ideal) x0 x1 x2 x3) (val_main_v42 (F := Ideal) x0 x1 x2 x3)
    (v29_real x0 x1 x2 x3 h0 h3) (v42_real x0 x1 x2 x3 h0 h3)

end Cert.ReferenceIdeal.PropReal

end
-- ==== Proof.PreReal.lean ====
/-
  The precondition "every float input is finite", decoded: each of the six float arrays holds only real numbers.

  The predicate is the conjunction, over the six float arrays A, of "all entries of |A| are below +∞": per array the
  elementwise comparison |A| < +∞ (the word 0x7F800000, broadcast), reduced by "and" over all axes to one bit, and the six
  bits and-ed together. If the conjunction is 1 then each reduced bit is 1, so each comparison bit is 1 at every index:
  max x (−x) < ⊤ on the extended reals, whence x is neither ⊤ nor ⊥, i.e. a real number.
-/
import proofs.«167773_j20693152432219_2_alg».proof.Proof.Gen.Pre_finite_inputs
import proofs.«167773_j20693152432219_2_alg».proof.Proof.RealClosure
import Idealize.ShloMosaic.Lib.ReduceAll
import Idealize.ShloMosaic.Lib.ValueIdx
import Idealize.ShloMosaic.PureOps.Ideal

noncomputable section

namespace Cert.Pre_finite_inputs.Decode

open Cert.Pre_finite_inputs Idealize.ShloMosaic Cert.Spec

/-- The rank-0 shape has one index. -/
instance : Subsingleton S_.Idx := ⟨fun a b => funext fun d => d.elim0⟩

/-- The word 0x7F800000 is +∞. -/
theorem posInf_eq : Ideal.ofBits .f32 0x7F800000#32 = (⊤ : EReal) := by
  simp [Ideal.ofBits, Ideal.ieee]

/-- An extended real whose absolute value max x (−x) is below +∞ is a real number. -/
theorem isReal_of_abs_lt (x : EReal)
    (h : Ideal.cmp .olt (max x (-x)) (Ideal.ofBits .f32 0x7F800000#32) = 1#1) : IsReal x := by
  rw [posInf_eq] at h
  have hlt : max x (-x) < ⊤ := by
    unfold Ideal.cmp at h
    by_contra hn
    simp [hn] at h
  obtain ⟨h1, h2⟩ := max_lt_iff.1 hlt
  refine isReal_of_ne ?_ (ne_of_lt h1)
  intro hb
  rw [hb] at h2
  exact absurd h2 (by simp)

/-- One array: if the "and" over all axes of the bits (|a i| < +∞) is 1, every entry of a is a real number. -/
theorem all_real {S : Shape} (a : FVec Ideal S .f32)
    (hb : S_.BroadcastsInDim S (![] : Fin 0 → Fin S.rank)) {axes : List (Fin S.rank)}
    (hr : S.ReducesTo axes S_) (hn : 0 < S_.numel)
    (e : Host.reduce IntOp.andi
        (cmpf .olt (Host.absf a) (broadcastInDim S ![] hb (constant (F := Ideal) S_ .f32 0x7F800000#32)))
        (constantI S_ 1 1#1) hr hn ValueIdx.ix0 = 1#1) :
    ∀ i, IsReal (a i) := by
  intro i
  have hi := Host.reduce_andi_all _ _ hr hn ValueIdx.ix0 e i
  exact isReal_of_abs_lt (a i) hi

/-- THE PRECONDITION DECODED: each of the six float arrays holds only real numbers. -/
theorem pre_real (a0 : FVec Ideal S50000x128 .f32) (a1 a2 : IVec S800000 32) (a3 : FVec Ideal S800000 .f32) (a4 : FVec Ideal S128x256 .f32)
    (a5 : FVec Ideal S256 .f32) (a6 : FVec Ideal S256x40 .f32) (a7 : FVec Ideal S40 .f32)
    (h : Cert.Pre_finite_inputs.fn (F := Ideal) a0 a1 a2 a3 a4 a5 a6 a7 = fun _ => 1#1) :
    (∀ i, IsReal (a0 i)) ∧ (∀ i, IsReal (a3 i)) ∧ (∀ i, IsReal (a4 i)) ∧ (∀ i, IsReal (a5 i)) ∧ (∀ i, IsReal (a6 i)) ∧ (∀ i, IsReal (a7 i)) := by
  have e := congrFun h ValueIdx.ix0
  dsimp only [fn, fn_part1, andi] at e
  simp only [IntOp.andi_eq_one] at e
  obtain ⟨⟨⟨⟨⟨e0, e3⟩, e4⟩, e5⟩, e6⟩, e7⟩ := e
  exact ⟨all_real a0 _ _ _ e0, all_real a3 _ _ _ e3, all_real a4 _ _ _ e4, all_real a5 _ _ _ e5,
    all_real a6 _ _ _ e6, all_real a7 _ _ _ e7⟩

end Cert.Pre_finite_inputs.Decode

end
-- ==== Proof.lean ====
/-
  The equivalence of a graph classifier's fused head kernel with its plain reference, on the extended reals.

  Both programs first propagate the node features over the graph on the host (three hops of gather, scale by the
  edge weight and scatter-add, accumulated onto the halved features): the same operations, so the same 50000 × 128
  array `Y` of the arguments. The kernel then computes, 2000 rows at a time, the two-layer head of `Y · 0.25` followed
  by a row log-softmax applied twice, spelt `z − (M + L)`; the reference computes the head of `Y / 4` on whole arrays,
  its log-softmax spelt `(z − M) − L`. Blocks of 2000 rows tile the 50000 rows, each output row depends on its own
  input row only, and the weights are whole blocks at every grid point, so the kernel's result array is the first
  spelling of the head of `Y`, row by row; the reference's run read back is the second. The two spellings agree when
  every entry involved is a real number: the precondition makes every float argument real, sums and products keep the
  propagation real, and then each row maximum is real, which is what moving `M` out of `−(M + L)` needs.
-/
import proofs.«167773_j20693152432219_2_alg».proof.Defs
import proofs.«167773_j20693152432219_2_alg».proof.Proof.Gen.Kernel
import proofs.«167773_j20693152432219_2_alg».proof.Proof.Gen.Kernel.Skeleton
import proofs.«167773_j20693152432219_2_alg».proof.Proof.Gen.Kernel.Launch
import proofs.«167773_j20693152432219_2_alg».proof.Proof.Gen.Kernel.Points
import proofs.«167773_j20693152432219_2_alg».proof.Proof.Gen.Kernel.Frame
import proofs.«167773_j20693152432219_2_alg».proof.Proof.Gen.KernelIdeal
import proofs.«167773_j20693152432219_2_alg».proof.Proof.Gen.KernelIdeal.Skeleton
import proofs.«167773_j20693152432219_2_alg».proof.Proof.Gen.KernelIdeal.Launch
import proofs.«167773_j20693152432219_2_alg».proof.Proof.Gen.KernelIdeal.Points
import proofs.«167773_j20693152432219_2_alg».proof.Proof.Gen.KernelIdeal.Frame
import proofs.«167773_j20693152432219_2_alg».proof.Proof.Gen.ReferenceIdeal
import proofs.«167773_j20693152432219_2_alg».proof.Proof.Gen.Pre_finite_inputs
import proofs.«167773_j20693152432219_2_alg».proof.Proof.KernelValue
import proofs.«167773_j20693152432219_2_alg».proof.Proof.KernelBlock
import proofs.«167773_j20693152432219_2_alg».proof.Proof.KernelArray
import proofs.«167773_j20693152432219_2_alg».proof.Proof.KernelPrefix
import proofs.«167773_j20693152432219_2_alg».proof.Proof.RefRead
import proofs.«167773_j20693152432219_2_alg».proof.Proof.RefRunRead
import proofs.«167773_j20693152432219_2_alg».proof.Proof.RefHead
import proofs.«167773_j20693152432219_2_alg».proof.Proof.HeadAlgebra
import proofs.«167773_j20693152432219_2_alg».proof.Proof.PropReal
import proofs.«167773_j20693152432219_2_alg».proof.Proof.PreReal
import Idealize.ShloMosaic.Adequacy
import Idealize.ShloMosaic.Init

noncomputable section

open Idealize.ShloMosaic Idealize.ShloMosaic.TcCoe Idealize.SL.Sem Idealize.ShloMosaic.ValueIdx

namespace Cert.Proof.Claims

/-- The result array of both programs, as the head (first spelling) of the propagated features. -/
def result (m : (ℓ : Loc Cert.KernelIdeal.nD Cert.KernelIdeal.τ Cert.KernelIdeal.sig) → Buf (Elt Ideal) ℓ) (c : Dev Cert.KernelIdeal.nD) :
    (⟨2, ![50000, 40]⟩ : Shape).Idx → EReal :=
  Cert.Spec.arrK
    (Cert.ReferenceIdeal.Read.val_main_v43 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)))
    (fun (a : Fin 128) (k : Fin 256) => m ((c.tc : Thread Cert.KernelIdeal.nD Cert.KernelIdeal.τ).loc Cert.KernelIdeal.main_arg4) (ix2 a k))
    (fun k : Fin 256 => m ((c.tc : Thread Cert.KernelIdeal.nD Cert.KernelIdeal.τ).loc Cert.KernelIdeal.main_arg5) (ix1 k))
    (fun (k : Fin 256) (c' : Fin 40) => m ((c.tc : Thread Cert.KernelIdeal.nD Cert.KernelIdeal.τ).loc Cert.KernelIdeal.main_arg6) (ix2 k c'))
    (fun c' : Fin 40 => m ((c.tc : Thread Cert.KernelIdeal.nD Cert.KernelIdeal.τ).loc Cert.KernelIdeal.main_arg7) (ix1 c'))

theorem kernel_G_eq (m : (ℓ : Loc Cert.KernelIdeal.nD Cert.KernelIdeal.τ Cert.KernelIdeal.sig) → Buf (Elt Ideal) ℓ) (c : Dev Cert.KernelIdeal.nD) :
    Cert.KernelIdeal.Arr.G m c = result m c := by
  have e1 : (fun (a : Fin 128) (k : Fin 256) => Cert.KernelIdeal.Gen.V m c Cert.KernelIdeal.main_v44 (ix2 a k))
      = fun a k => m ((c.tc : Thread Cert.KernelIdeal.nD Cert.KernelIdeal.τ).loc Cert.KernelIdeal.main_arg4) (ix2 a k) :=
    funext fun a => funext fun k => Cert.KernelIdeal.Prefix.V_v44 m c a k
  have e2 : (fun k : Fin 256 => Cert.KernelIdeal.Gen.V m c Cert.KernelIdeal.main_v46 (ix2 (0 : Fin 1) k))
      = fun k => m ((c.tc : Thread Cert.KernelIdeal.nD Cert.KernelIdeal.τ).loc Cert.KernelIdeal.main_arg5) (ix1 k) :=
    funext fun k => Cert.KernelIdeal.Prefix.V_v46 m c k
  have e3 : (fun (k : Fin 256) (c' : Fin 40) => Cert.KernelIdeal.Gen.V m c Cert.KernelIdeal.main_v45 (ix2 k c'))
      = fun k c' => m ((c.tc : Thread Cert.KernelIdeal.nD Cert.KernelIdeal.τ).loc Cert.KernelIdeal.main_arg6) (ix2 k c') :=
    funext fun k => funext fun c' => Cert.KernelIdeal.Prefix.V_v45 m c k c'
  have e4 : (fun c' : Fin 40 => Cert.KernelIdeal.Gen.V m c Cert.KernelIdeal.main_v47 (ix2 (0 : Fin 1) c'))
      = fun c' => m ((c.tc : Thread Cert.KernelIdeal.nD Cert.KernelIdeal.τ).loc Cert.KernelIdeal.main_arg7) (ix1 c') :=
    funext fun c' => Cert.KernelIdeal.Prefix.V_v47 m c c'
  unfold Cert.KernelIdeal.Arr.G result
  rw [e1, e2, e3, e4, Cert.KernelIdeal.Prefix.V_v43 m c]

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunRead.run m ρ)
theorem preserves : Cert.preserves_Kernel_KernelIdeal := trivial

theorem algebraic : Cert.algebraic_KernelIdeal_ReferenceIdeal := by
  intro m ρ m' ρ' hpre hagree
  refine ⟨fun c => result m c, ?_, ?_⟩
  · exact (θ_run Cert.KernelIdeal.defs _ _).mono (fun r h c => ⟨(h c).1.trans (kernel_G_eq m c), (h c).2⟩)
      (Cert.KernelIdeal.Arr.run Cert.KernelIdeal.Block.pay_eq m ρ)
  · refine (θ_run Cert.ReferenceIdeal.defs _ _).mono (fun r h c => ⟨(h c).1.trans ?_, (h c).2⟩)
      (Cert.ReferenceIdeal.RunRead.run m' ρ')
    obtain ⟨e0, e1, e2, e3, e4, e5, e6, e7⟩ := hagree c
    rw [e0, e1, e2, e3, e4, e5, e6, e7, Cert.ReferenceIdeal.Head.ref_head_eq]
    obtain ⟨r0, r3, r4, r5, r6, r7⟩ := Cert.Pre_finite_inputs.Decode.pre_real _ _ _ _ _ _ _ _ (hpre c)
    exact (Cert.Spec.arr_eq _ _ _ _ _ (Cert.ReferenceIdeal.PropReal.prop_real _ _ _ _ r0 r3)
      (fun a k => r4 _) (fun k => r5 _) (fun k c' => r6 _) (fun c' => r7 _)).symm

end Cert.Proof.Claims

namespace Cert.Proof

theorem claim : Cert.Claim := ⟨Cert.Kernel.Gen.facts, Cert.KernelIdeal.Gen.facts, Cert.ReferenceIdeal.Gen.facts, Cert.Pre_finite_inputs.Gen.facts,
  Cert.Proof.Claims.frame_p, Cert.Proof.Claims.frame_pi, Cert.Proof.Claims.frame_ri, Cert.Proof.Claims.preserves, Cert.Proof.Claims.algebraic⟩

end Cert.Proof

end
